-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S512x256 : Shape := ⟨2, ![512, 256]⟩
abbrev S512 : Shape := ⟨1, ![512]⟩
abbrev S512x512 : Shape := ⟨2, ![512, 512]⟩
abbrev S256x512 : Shape := ⟨2, ![256, 512]⟩
abbrev S256 : Shape := ⟨1, ![256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg13 : FVec F S256x512 .f32) (main_arg14 : FVec F S256 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S256x512 .f32 := Host.absf main_arg13
  let main_cst_20 : FVec F S_ .f32 := constant S_ .f32 0x7F800000#32
  let main_v55 : FVec F S256x512 .f32 := broadcastInDim S256x512 ![] bcast_S_S256x512 main_cst_20
  let main_v56 : IVec S256x512 1 := cmpf .olt main_v54 main_v55
  let main_c_21 : IVec S_ 1 := constantI S_ 1 1#1
  let main_v57 : IVec S_ 1 := (fun x v => Host.reduce IntOp.andi x v reducesTo_S256x512_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg9 : FVec F S512x256 .f32) (main_arg10 : FVec F S512x512 .f32) (main_arg11 : FVec F S512 .f32) (main_arg12 : FVec F S512x512 .f32) (main_arg13 : FVec F S256x512 .f32) (main_arg14 : FVec F S256 .f32) (main_v33 : IVec S_ 1) : IVec S_ 1 :=
  let main_v34 : FVec F S512x256 .f32 := Host.absf main_arg9
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S512x512 .f32 := Host.absf main_arg10
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg11
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg12
  let main_cst_18 : FVec F S_ .f32 := constant S_ .f32 0x7F800000#32
  let main_v50 : FVec F S512x512 .f32 := broadcastInDim S512x512 ![] bcast_S_S512x512 main_cst_18
  fn_part3 (F := F) main_arg13 main_arg14 main_v48 main_v49 main_v50

def fn_part1 {F : FTy → Type} [FloatOps F] (main_arg6 : FVec F S512x256 .f32) (main_arg7 : FVec F S512x256 .f32) (main_arg8 : FVec F S512 .f32) (main_arg9 : FVec F S512x256 .f32) (main_arg10 : FVec F S512x512 .f32) (main_arg11 : FVec F S512 .f32) (main_arg12 : FVec F S512x512 .f32) (main_arg13 : FVec F S256x512 .f32) (main_arg14 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg6
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S512x256 .f32 := Host.absf main_arg7
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S20000x256 .f32) (main_arg1 : FVec F S20000x256 .f32) (main_arg2 : IVec S2x320000 32) (main_arg3 : IVec S2x320000 32) (main_arg4 : FVec F S512x256 .f32) (main_arg5 : FVec F S512 .f32) (main_arg6 : FVec F S512x256 .f32) (main_arg7 : FVec F S512x256 .f32) (main_arg8 : FVec F S512 .f32) (main_arg9 : FVec F S512x256 .f32) (main_arg10 : FVec F S512x512 .f32) (main_arg11 : FVec F S512 .f32) (main_arg12 : FVec F S512x512 .f32) (main_arg13 : FVec F S256x512 .f32) (main_arg14 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S20000x256 .f32 := Host.absf main_arg1
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_arg10 main_arg11 main_arg12 main_arg13 main_arg14 main_v13 main_v16
-- ==== Kernel.lean ====
abbrev S20000x256 : Shape := ⟨2, ![20000, 256]⟩
abbrev S2x320000 : Shape := ⟨2, ![2, 320000]⟩
abbrev S512x256 : Shape := ⟨2, ![512, 256]⟩
abbrev S512 : Shape := ⟨1, ![512]⟩
abbrev S512x512 : Shape := ⟨2, ![512, 512]⟩
abbrev S256x512 : Shape := ⟨2, ![256, 512]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S20000 : Shape := ⟨1, ![20000]⟩
abbrev S20000x1 : Shape := ⟨2, ![20000, 1]⟩
abbrev S1x512 : Shape := ⟨2, ![1, 512]⟩
abbrev S20000x512 : Shape := ⟨2, ![20000, 512]⟩
abbrev S1000x256 : Shape := ⟨2, ![1000, 256]⟩
abbrev S1000x512 : Shape := ⟨2, ![1000, 512]⟩
abbrev S320000x512 : Shape := ⟨2, ![320000, 512]⟩
abbrev S1x256 : Shape := ⟨2, ![1, 256]⟩

abbrev nBuf : Space → Nat
  | .hbm => 117
  | .vmem => 33
  | .smem => 0
  | _ => 0

abbrev bufTy : (tb : Table) → Fin (tcTables nBuf tb) → BufTy
  | .hbm, ⟨0, _⟩ => ⟨S20000x256, .f32⟩
  | .hbm, ⟨1, _⟩ => ⟨S20000x256, .f32⟩
  | .hbm, ⟨2, _⟩ => ⟨S2x320000, .i32⟩
  | .hbm, ⟨3, _⟩ => ⟨S2x320000, .i32⟩
  | .hbm, ⟨4, _⟩ => ⟨S512x256, .f32⟩
  | .hbm, ⟨5, _⟩ => ⟨S512, .f32⟩
  | .hbm, ⟨6, _⟩ => ⟨S512x256, .f32⟩
  | .hbm, ⟨7, _⟩ => ⟨S512x256, .f32⟩
  | .hbm, ⟨8, _⟩ => ⟨S512, .f32⟩
  | .hbm, ⟨9, _⟩ => ⟨S512x256, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S256x512, .f32⟩
  | .hbm, ⟨14, _⟩ => ⟨S256, .f32⟩
  | .hbm, ⟨15, _⟩ => ⟨S1x320000, .i32⟩
  | .hbm, ⟨16, _⟩ => ⟨S320000, .i32⟩
  | .hbm, ⟨17, _⟩ => ⟨S1x320000, .i32⟩
  | .hbm, ⟨18, _⟩ => ⟨S320000, .i32⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S320000x256, .f32⟩
  | .hbm, ⟨28, _⟩ => ⟨S_, .f32⟩
  | .hbm, ⟨29, _⟩ => ⟨S20000x256, .f32⟩
  | .hbm, ⟨30, _⟩ => ⟨S320000x1, .i32⟩
  | .hbm, ⟨31, _⟩ => ⟨S20000x256, .f32⟩
  | .hbm, ⟨32, _⟩ => ⟨S_, .f32⟩
  | .hbm, ⟨33, _⟩ => ⟨S320000, .f32⟩
  | .hbm, ⟨34, _⟩ => ⟨S_, .f32⟩
  | .hbm, ⟨35, _⟩ => ⟨S20000, .f32⟩
  | .hbm, ⟨36, _⟩ => ⟨S320000x1, .i32⟩
  | .hbm, ⟨37, _⟩ => ⟨S20000, .f32⟩
  | .hbm, ⟨38, _⟩ => ⟨S_, .f32⟩
  | .hbm, ⟨39, _⟩ => ⟨S20000, .f32⟩
  | .hbm, ⟨40, _⟩ => ⟨S20000, .f32⟩
  | .hbm, ⟨41, _⟩ => ⟨S20000x1, .f32⟩
  | .hbm, ⟨42, _⟩ => ⟨S20000x256, .f32⟩
  | .hbm, ⟨43, _⟩ => ⟨S20000x256, .f32⟩
  | .hbm, ⟨44, _⟩ => ⟨S256x512, .f32⟩
  | .hbm, ⟨45, _⟩ => ⟨S256x512, .f32⟩
  | .hbm, ⟨46, _⟩ => ⟨S1x512, .f32⟩
  | .hbm, ⟨47, _⟩ => ⟨S20000x512, .f32⟩
  | .hbm, ⟨48, _⟩ => ⟨S1x320000, .i32⟩
  | .hbm, ⟨49, _⟩ => ⟨S320000, .i32⟩
  | .hbm, ⟨50, _⟩ => ⟨S1x320000, .i32⟩
  | .hbm, ⟨51, _⟩ => ⟨S320000, .i32⟩
  | .hbm, ⟨52, _⟩ => ⟨S_, .i32⟩
  | .hbm, ⟨53, _⟩ => ⟨S320000, .i32⟩
  | .hbm, ⟨54, _⟩ => ⟨S320000, .i1⟩
  | .hbm, ⟨55, _⟩ => ⟨S_, .i32⟩
  | .hbm, ⟨56, _⟩ => ⟨S320000, .i32⟩
  | .hbm, ⟨57, _⟩ => ⟨S320000, .i32⟩
  | .hbm, ⟨58, _⟩ => ⟨S320000, .i32⟩
  | .hbm, ⟨59, _⟩ => ⟨S320000x1, .i32⟩
  | .hbm, ⟨60, _⟩ => ⟨S320000x256, .f32⟩
  | .hbm, ⟨61, _⟩ => ⟨S_, .f32⟩
  | .hbm, ⟨62, _⟩ => ⟨S20000x256, .f32⟩
  | .hbm, ⟨63, _⟩ => ⟨S320000x1, .i32⟩
  | .hbm, ⟨64, _⟩ => ⟨S20000x256, .f32⟩
  | .hbm, ⟨65, _⟩ => ⟨S_, .f32⟩
  | .hbm, ⟨66, _⟩ => ⟨S320000, .f32⟩
  | .hbm, ⟨67, _⟩ => ⟨S_, .f32⟩
  | .hbm, ⟨68, _⟩ => ⟨S20000, .f32⟩
  | .hbm, ⟨69, _⟩ => ⟨S320000x1, .i32⟩
  | .hbm, ⟨70, _⟩ => ⟨S20000, .f32⟩
  | .hbm, ⟨71, _⟩ => ⟨S_, .f32⟩
  | .hbm, ⟨72, _⟩ => ⟨S20000, .f32⟩
  | .hbm, ⟨73, _⟩ => ⟨S20000, .f32⟩
  | .hbm, ⟨74, _⟩ => ⟨S20000x1, .f32⟩
  | .hbm, ⟨75, _⟩ => ⟨S20000x256, .f32⟩
  | .hbm, ⟨76, _⟩ => ⟨S20000x256, .f32⟩
  | .hbm, ⟨77, _⟩ => ⟨S256x512, .f32⟩
  | .hbm, ⟨78, _⟩ => ⟨S256x512, .f32⟩
  | .hbm, ⟨79, _⟩ => ⟨S1x512, .f32⟩
  | .hbm, ⟨80, _⟩ => ⟨S20000x512, .f32⟩
  | .hbm, ⟨81, _⟩ => ⟨S1x320000, .i32⟩
  | .hbm, ⟨82, _⟩ => ⟨S320000, .i32⟩
  | .hbm, ⟨83, _⟩ => ⟨S1x320000, .i32⟩
  | .hbm, ⟨84, _⟩ => ⟨S320000, .i32⟩
  | .hbm, ⟨85, _⟩ => ⟨S_, .i32⟩
  | .hbm, ⟨86, _⟩ => ⟨S320000, .i32⟩
  | .hbm, ⟨87, _⟩ => ⟨S320000, .i1⟩
  | .hbm, ⟨88, _⟩ => ⟨S_, .i32⟩
  | .hbm, ⟨89, _⟩ => ⟨S320000, .i32⟩
  | .hbm, ⟨90, _⟩ => ⟨S320000, .i32⟩
  | .hbm, ⟨91, _⟩ => ⟨S320000, .i32⟩
  | .hbm, ⟨92, _⟩ => ⟨S320000x1, .i32⟩
  | .hbm, ⟨93, _⟩ => ⟨S320000x512, .f32⟩
  | .hbm, ⟨94, _⟩ => ⟨S_, .f32⟩
  | .hbm, ⟨95, _⟩ => ⟨S20000x512, .f32⟩
  | .hbm, ⟨96, _⟩ => ⟨S320000x1, .i32⟩
  | .hbm, ⟨97, _⟩ => ⟨S20000x512, .f32⟩
  | .hbm, ⟨98, _⟩ => ⟨S_, .f32⟩
  | .hbm, ⟨99, _⟩ => ⟨S320000, .f32⟩
  | .hbm, ⟨100, _⟩ => ⟨S_, .f32⟩
  | .hbm, ⟨101, _⟩ => ⟨S20000, .f32⟩
  | .hbm, ⟨102, _⟩ => ⟨S320000x1, .i32⟩
  | .hbm, ⟨103, _⟩ => ⟨S20000, .f32⟩
  | .hbm, ⟨104, _⟩ => ⟨S_, .f32⟩
  | .hbm, ⟨105, _⟩ => ⟨S20000, .f32⟩
  | .hbm, ⟨106, _⟩ => ⟨S20000, .f32⟩
  | .hbm, ⟨107, _⟩ => ⟨S20000x1, .f32⟩
  | .hbm, ⟨108, _⟩ => ⟨S20000x512, .f32⟩
  | .hbm, ⟨109, _⟩ => ⟨S20000x512, .f32⟩
  | .hbm, ⟨110, _⟩ => ⟨S512x512, .f32⟩
  | .hbm, ⟨111, _⟩ => ⟨S512x512, .f32⟩
  | .hbm, ⟨112, _⟩ => ⟨S1x512, .f32⟩
  | .hbm, ⟨113, _⟩ => ⟨S20000x512, .f32⟩
  | .hbm, ⟨114, _⟩ => ⟨S512x256, .f32⟩
  | .hbm, ⟨115, _⟩ => ⟨S1x256, .f32⟩
  | .hbm, ⟨116, _⟩ => ⟨S20000x256, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S1000x512, .f32⟩
  | .local _ .vmem, ⟨8, _⟩ => ⟨S1000x512, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S256x512, .f32⟩
  | .local _ .vmem, ⟨14, _⟩ => ⟨S256x512, .f32⟩
  | .local _ .vmem, ⟨15, _⟩ => ⟨S1x512, .f32⟩
  | .local _ .vmem, ⟨16, _⟩ => ⟨S1000x512, .f32⟩
  | .local _ .vmem, ⟨17, _⟩ => ⟨S1000x512, .f32⟩
  | .local _ .vmem, ⟨18, _⟩ => ⟨S1000x512, .f32⟩
  | .local _ .vmem, ⟨19, _⟩ => ⟨S1000x512, .f32⟩
  | .local _ .vmem, ⟨20, _⟩ => ⟨S1000x512, .f32⟩
  | .local _ .vmem, ⟨21, _⟩ => ⟨S1000x512, .f32⟩
  | .local _ .vmem, ⟨22, _⟩ => ⟨S512x512, .f32⟩
  | .local _ .vmem, ⟨23, _⟩ => ⟨S512x512, .f32⟩
  | .local _ .vmem, ⟨24, _⟩ => ⟨S1x512, .f32⟩
  | .local _ .vmem, ⟨25, _⟩ => ⟨S1000x512, .f32⟩
  | .local _ .vmem, ⟨26, _⟩ => ⟨S1000x512, .f32⟩
  | .local _ .vmem, ⟨27, _⟩ => ⟨S1000x512, .f32⟩
  | .local _ .vmem, ⟨28, _⟩ => ⟨S1000x512, .f32⟩
  | .local _ .vmem, ⟨29, _⟩ => ⟨S512x256, .f32⟩
  | .local _ .vmem, ⟨30, _⟩ => ⟨S1x256, .f32⟩
  | .local _ .vmem, ⟨31, _⟩ => ⟨S1000x256, .f32⟩
  | .local _ .vmem, ⟨32, _⟩ => ⟨S1000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_10 : Ref sig .tc := ⟨.hbm, 85, rfl⟩
abbrev main_v58 : Ref sig .tc := ⟨.hbm, 86, rfl⟩
abbrev main_v59 : Ref sig .tc := ⟨.hbm, 87, rfl⟩
abbrev main_c_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_12 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  transposes_S512x256_S256x512_1_0 : S512x256.Transposes [1, 0] S256x512
  shapeCasts_S512_S1x512 : S512.ShapeCasts S1x512
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  bcast_S_S20000x512 : S_.BroadcastsInDim S20000x512 (![] : Fin 0 → Fin S20000x512.rank)
  bcast_S20000x1_S20000x512_0_1 : S20000x1.BroadcastsInDim S20000x512 (![0, 1] : Fin 2 → Fin S20000x512.rank)
  transposes_S512x512_S512x512_1_0 : S512x512.Transposes [1, 0] S512x512
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S256x512_S512x256_1_0 : S256x512.Transposes [1, 0] S512x256
  shapeCasts_S256_S1x256 : S256.ShapeCasts S1x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S20000_S320000x1_S320000_n_0_0_1_wf : ScatterDims.WF S20000 S320000x1 S320000 [] [0] [0] 1
  dot_S1000x256_S256x512_S1000x512_1_0_0_1_n_n_wf : DotDims.WF S1000x256 S256x512 S1000x512 [1] [0] [0] [1] [] []
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S1000x512_S512x512_S1000x512_1_0_0_1_n_n_wf : DotDims.WF S1000x512 S512x512 S1000x512 [1] [0] [0] [1] [] []
  dot_S1000x512_S512x256_S1000x256_1_0_0_1_n_n_wf : DotDims.WF S1000x512 S512x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S20000x256.size a
  hwx0_0 : ∀ i : grid0.Coords, EltTy.bits .f32 = 32 ∨ (Rect.block (s := S20000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S20000x256.size a
  hwx0_1 : ∀ i : grid0.Coords, EltTy.bits .f32 = 32 ∨ (Rect.block (s := S20000x256) S1000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S20000x512.size a
  hwx0_5 : ∀ i : grid0.Coords, EltTy.bits .f32 = 32 ∨ (Rect.block (s := S20000x512) S1000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S20000x256.size a
  hwx1_0 : ∀ i : grid1.Coords, EltTy.bits .f32 = 32 ∨ (Rect.block (s := S20000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S20000x256.size a
  hwx1_1 : ∀ i : grid1.Coords, EltTy.bits .f32 = 32 ∨ (Rect.block (s := S20000x256) S1000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .f32 = 32 ∨ (Rect.block (s := S256x512) S256x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S256x512.size a
  hwx1_3 : ∀ i : grid1.Coords, EltTy.bits .f32 = 32 ∨ (Rect.block (s := S256x512) S256x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x512.size a ≤ S20000x512.size a
  hwx1_5 : ∀ i : grid1.Coords, EltTy.bits .f32 = 32 ∨ (Rect.block (s := S20000x512) S1000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S20000x512.size a
  hwx2_0 : ∀ i : grid2.Coords, EltTy.bits .f32 = 32 ∨ (Rect.block (s := S20000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x512.size a ≤ S20000x512.size a
  hwx2_1 : ∀ i : grid2.Coords, EltTy.bits .f32 = 32 ∨ (Rect.block (s := S20000x512) S1000x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x512.size a ≤ S20000x512.size a
  hwx2_5 : ∀ i : grid2.Coords, EltTy.bits .f32 = 32 ∨ (Rect.block (s := S20000x512) S1000x512.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S20000x512.size a
  hwx3_0 : ∀ i : grid3.Coords, EltTy.bits .f32 = 32 ∨ (Rect.block (s := S20000x512) S1000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S512x256.size a
  hwx3_1 : ∀ i : grid3.Coords, EltTy.bits .f32 = 32 ∨ (Rect.block (s := S512x256) S512x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x256.size a ≤ S20000x256.size a
  hwx3_3 : ∀ i : grid3.Coords, EltTy.bits .f32 = 32 ∨ (Rect.block (s := S20000x256) S1000x256.size (cc3_transform_3 i) (hinb3_3 i)).WholeWords (EltTy.packing .f32)

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf

abbrev win0_0 : Pipeline.Window sig grid0 :=
  Pipeline.Window.ofSpec (Memref.whole main_v22) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S256x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S1000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v76) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v77) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v78) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v79) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v80) S1000x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v80) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S512x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v83) S1000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S512x256 : Shape := ⟨2, ![512, 256]⟩
abbrev S512 : Shape := ⟨1, ![512]⟩
abbrev S512x512 : Shape := ⟨2, ![512, 512]⟩
abbrev S256x512 : Shape := ⟨2, ![256, 512]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S20000 : Shape := ⟨1, ![20000]⟩
abbrev S20000x1 : Shape := ⟨2, ![20000, 1]⟩
abbrev S20000x512 : Shape := ⟨2, ![20000, 512]⟩
abbrev S1x512 : Shape := ⟨2, ![1, 512]⟩
abbrev S320000x512 : Shape := ⟨2, ![320000, 512]⟩
abbrev S1x256 : Shape := ⟨2, ![1, 256]⟩

abbrev nBuf : Space → Nat
  | .hbm => 140
  | .vmem => 0
  | .smem => 0
  | _ => 0

abbrev hbmTy0_0 (i : Nat) : BufTy := match i % 128 with
  | 0 => ⟨S20000x256, .f32⟩
  | 1 => ⟨S20000x256, .f32⟩
  | 2 => ⟨S2x320000, .i32⟩
  | 3 => ⟨S2x320000, .i32⟩
  | 4 => ⟨S512x256, .f32⟩
  | 5 => ⟨S512, .f32⟩
  | 6 => ⟨S512x256, .f32⟩
  | 7 => ⟨S512x256, .f32⟩
  | 8 => ⟨S512, .f32⟩
  | 9 => ⟨S512x256, .f32⟩
  | 10 => ⟨S512x512, .f32⟩
  | 11 => ⟨S512, .f32⟩
  | 12 => ⟨S512x512, .f32⟩
  | 13 => ⟨S256x512, .f32⟩
  | 14 => ⟨S256, .f32⟩
  | 15 => ⟨S1x320000, .i32⟩
  | 16 => ⟨S320000, .i32⟩
  | 17 => ⟨S1x320000, .i32⟩
  | 18 => ⟨S320000, .i32⟩
  | 19 => ⟨S_, .i32⟩
  | 20 => ⟨S320000, .i32⟩
  | 21 => ⟨S320000, .i1⟩
  | 22 => ⟨S_, .i32⟩
  | 23 => ⟨S320000, .i32⟩
  | 24 => ⟨S320000, .i32⟩
  | 25 => ⟨S320000, .i32⟩
  | 26 => ⟨S320000x1, .i32⟩
  | 27 => ⟨S320000x256, .f32⟩
  | 28 => ⟨S_, .f32⟩
  | 29 => ⟨S20000x256, .f32⟩
  | 30 => ⟨S320000x1, .i32⟩
  | 31 => ⟨S20000x256, .f32⟩
  | 32 => ⟨S_, .f32⟩
  | 33 => ⟨S320000, .f32⟩
  | 34 => ⟨S_, .f32⟩
  | 35 => ⟨S20000, .f32⟩
  | 36 => ⟨S320000x1, .i32⟩
  | 37 => ⟨S20000, .f32⟩
  | 38 => ⟨S_, .f32⟩
  | 39 => ⟨S20000, .f32⟩
  | 40 => ⟨S20000, .f32⟩
  | 41 => ⟨S20000x1, .f32⟩
  | 42 => ⟨S20000x256, .f32⟩
  | 43 => ⟨S20000x256, .f32⟩
  | 44 => ⟨S256x512, .f32⟩
  | 45 => ⟨S20000x512, .f32⟩
  | 46 => ⟨S1x512, .f32⟩
  | 47 => ⟨S20000x512, .f32⟩
  | 48 => ⟨S20000x512, .f32⟩
  | 49 => ⟨S256x512, .f32⟩
  | 50 => ⟨S20000x512, .f32⟩
  | 51 => ⟨S20000x512, .f32⟩
  | 52 => ⟨S_, .f32⟩
  | 53 => ⟨S20000x512, .f32⟩
  | 54 => ⟨S20000x512, .f32⟩
  | 55 => ⟨S1x320000, .i32⟩
  | 56 => ⟨S320000, .i32⟩
  | 57 => ⟨S1x320000, .i32⟩
  | 58 => ⟨S320000, .i32⟩
  | 59 => ⟨S_, .i32⟩
  | 60 => ⟨S320000, .i32⟩
  | 61 => ⟨S320000, .i1⟩
  | 62 => ⟨S_, .i32⟩
  | 63 => ⟨S320000, .i32⟩
  | 64 => ⟨S320000, .i32⟩
  | 65 => ⟨S320000, .i32⟩
  | 66 => ⟨S320000x1, .i32⟩
  | 67 => ⟨S320000x256, .f32⟩
  | 68 => ⟨S_, .f32⟩
  | 69 => ⟨S20000x256, .f32⟩
  | 70 => ⟨S320000x1, .i32⟩
  | 71 => ⟨S20000x256, .f32⟩
  | 72 => ⟨S_, .f32⟩
  | 73 => ⟨S320000, .f32⟩
  | 74 => ⟨S_, .f32⟩
  | 75 => ⟨S20000, .f32⟩
  | 76 => ⟨S320000x1, .i32⟩
  | 77 => ⟨S20000, .f32⟩
  | 78 => ⟨S_, .f32⟩
  | 79 => ⟨S20000, .f32⟩
  | 80 => ⟨S20000, .f32⟩
  | 81 => ⟨S20000x1, .f32⟩
  | 82 => ⟨S20000x256, .f32⟩
  | 83 => ⟨S20000x256, .f32⟩
  | 84 => ⟨S256x512, .f32⟩
  | 85 => ⟨S20000x512, .f32⟩
  | 86 => ⟨S1x512, .f32⟩
  | 87 => ⟨S20000x512, .f32⟩
  | 88 => ⟨S20000x512, .f32⟩
  | 89 => ⟨S256x512, .f32⟩
  | 90 => ⟨S20000x512, .f32⟩
  | 91 => ⟨S20000x512, .f32⟩
  | 92 => ⟨S_, .f32⟩
  | 93 => ⟨S20000x512, .f32⟩
  | 94 => ⟨S20000x512, .f32⟩
  | 95 => ⟨S1x320000, .i32⟩
  | 96 => ⟨S320000, .i32⟩
  | 97 => ⟨S1x320000, .i32⟩
  | 98 => ⟨S320000, .i32⟩
  | 99 => ⟨S_, .i32⟩
  | 100 => ⟨S320000, .i32⟩
  | 101 => ⟨S320000, .i1⟩
  | 102 => ⟨S_, .i32⟩
  | 103 => ⟨S320000, .i32⟩
  | 104 => ⟨S320000, .i32⟩
  | 105 => ⟨S320000, .i32⟩
  | 106 => ⟨S320000x1, .i32⟩
  | 107 => ⟨S320000x512, .f32⟩
  | 108 => ⟨S_, .f32⟩
  | 109 => ⟨S20000x512, .f32⟩
  | 110 => ⟨S320000x1, .i32⟩
  | 111 => ⟨S20000x512, .f32⟩
  | 112 => ⟨S_, .f32⟩
  | 113 => ⟨S320000, .f32⟩
  | 114 => ⟨S_, .f32⟩
  | 115 => ⟨S20000, .f32⟩
  | 116 => ⟨S320000x1, .i32⟩
  | 117 => ⟨S20000, .f32⟩
  | 118 => ⟨S_, .f32⟩
  | 119 => ⟨S20000, .f32⟩
  | 120 => ⟨S20000, .f32⟩
  | 121 => ⟨S20000x1, .f32⟩
  | 122 => ⟨S20000x512, .f32⟩
  | 123 => ⟨S20000x512, .f32⟩
  | 124 => ⟨S512x512, .f32⟩
  | 125 => ⟨S20000x512, .f32⟩
  | 126 => ⟨S1x512, .f32⟩
  | 127 => ⟨S20000x512, .f32⟩
  | _ => ⟨S20000x256, .f32⟩

abbrev hbmTy0_1 (i : Nat) : BufTy := match i % 128 with
  | 0 => ⟨S20000x512, .f32⟩
  | 1 => ⟨S512x512, .f32⟩
  | 2 => ⟨S20000x512, .f32⟩
  | 3 => ⟨S20000x512, .f32⟩
  | 4 => ⟨S_, .f32⟩
  | 5 => ⟨S20000x512, .f32⟩
  | 6 => ⟨S20000x512, .f32⟩
  | 7 => ⟨S512x256, .f32⟩
  | 8 => ⟨S20000x256, .f32⟩
  | 9 => ⟨S1x256, .f32⟩
  | 10 => ⟨S20000x256, .f32⟩
  | 11 => ⟨S20000x256, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call0_cst : Ref sig .tc := ⟨.hbm, 52, rfl⟩
abbrev main_call0_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_4 : Ref sig .tc := ⟨.hbm, 59, rfl⟩
abbrev main_v36 : Ref sig .tc := ⟨.hbm, 60, rfl⟩
abbrev main_v37 : Ref sig .tc := ⟨.hbm, 61, rfl⟩
abbrev main_c_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call1_cst : Ref sig .tc := ⟨.hbm, 92, rfl⟩
abbrev main_call1_v0 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_10 : Ref sig .tc := ⟨.hbm, 99, rfl⟩
abbrev main_v68 : Ref sig .tc := ⟨.hbm, 100, rfl⟩
abbrev main_v69 : Ref sig .tc := ⟨.hbm, 101, rfl⟩
abbrev main_c_11 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_12 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_13 : Ref sig .tc := ⟨.hbm, 112, rfl⟩
abbrev main_v78 : Ref sig .tc := ⟨.hbm, 113, rfl⟩
abbrev main_cst_14 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_15 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call2_cst : Ref sig .tc := ⟨.hbm, 132, rfl⟩
abbrev main_call2_v0 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  transposes_S512x256_S256x512_1_0 : S512x256.Transposes [1, 0] S256x512
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S_S20000x512 : S_.BroadcastsInDim S20000x512 (![] : Fin 0 → Fin S20000x512.rank)
  bcast_S20000x1_S20000x512_0_1 : S20000x1.BroadcastsInDim S20000x512 (![0, 1] : Fin 2 → Fin S20000x512.rank)
  transposes_S512x512_S512x512_1_0 : S512x512.Transposes [1, 0] S512x512
  transposes_S256x512_S512x256_1_0 : S256x512.Transposes [1, 0] S512x256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S20000_S320000x1_S320000_n_0_0_1_wf : ScatterDims.WF S20000 S320000x1 S320000 [] [0] [0] 1
  dot_S20000x256_S256x512_S20000x512_1_0_0_1_n_n_wf : DotDims.WF S20000x256 S256x512 S20000x512 [1] [0] [0] [1] [] []
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S20000x512_S512x512_S20000x512_1_0_0_1_n_n_wf : DotDims.WF S20000x512 S512x512 S20000x512 [1] [0] [0] [1] [] []
  dot_S20000x512_S512x256_S20000x256_1_0_0_1_n_n_wf : DotDims.WF S20000x512 S512x256 S20000x256 [1] [0] [0] [1] [] []

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S20000x256_S256x512_S20000x512_1_0_0_1_n_n : DotDims S20000x256 S256x512 S20000x512 where
  lhsContracting := [1]
  rhsContracting := [0]
  lhsNonContracting := [0]
  rhsNonContracting := [1]
  lhsBatch := []
  rhsBatch := []
  wf := dot_S20000x256_S256x512_S20000x512_1_0_0_1_n_n_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf

class Facts : Prop extends Facts₀ where

variable [Facts]
-- ==== Proof.ResultRun.lean ====
/-
  The idealized kernel's run with its result named.

  @main is eight segments: four stretches of host operations and four grid regions.  After the last segment every buffer
  that outlives a region holds the contents the fold through the segments gives it, so the result buffer ends at that fold's
  value and the fifteen argument buffers as launched.
-/
import proofs.«101142_j61718680044159_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v83) = W8 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v83 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

end Cert.KernelIdeal.ResultRun

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.LibRowStages.lean ====
/-
  Row-wise stages on matrices of extended reals: the matrix product, a bias row added to every row, the floor at zero.

  On the extended reals an [n, k] matrix times a [k, d] matrix has at (p, o) the sum over j of a(p, j) * w(j, o); adding a
  one-row matrix to every row adds b(0, j) at (p, j); flooring takes the maximum with what the zero word of the 32-bit
  float format denotes.  Each of the three works one row at a time: row p of the result depends on row p of the matrix
  operand only.  So if row q of a matrix ab is row p of a matrix a, the same holds of their images under any of the three
  (`RowEq`, `mm_row`, `addRow_row`, `relu_row`), hence under any composition: a stage computed on a block of rows is the
  same rows of the stage of the whole matrix.  Nothing is distributed or cancelled, so this holds at the infinities too.

  The operations a vector unit and a host program apply are these functions, entry by entry: a matrix unit's product into
  the zero accumulator and the host's contraction with the same dimension numbers are `mm` whatever the operands' float
  formats; a bias row spread over the rows and added is `addRow` (for the unit's spread of a one-row matrix, and for the
  host's vector placed as a row and then spread); the maximum against a splat of the zero word is `relu` (splat from a
  scalar constant by the unit, from a scalar array by the host); a change to a narrower float format changes nothing.
-/
import Idealize.ShloMosaic.PureOps.Ideal
import Idealize.ShloMosaic.PureOps.Ideal.Laws
import Idealize.ShloMosaic.Lib.ValueIdx
import Idealize.ShloMosaic.Lib.Pipeline.Value
import proofs.«101142_j61718680044159_1_alg».proof.Proof.LibPlainDot
import proofs.«101142_j61718680044159_1_alg».proof.Proof.LibBiasRow
import proofs.«101142_j61718680044159_1_alg».proof.Proof.LibRowBroadcast

noncomputable section

open scoped BigOperators

namespace Cert.LibRowStages

open Idealize.ShloMosaic Idealize.ShloMosaic.ValueIdx

/-- An [a, b] matrix of extended reals. -/
abbrev Mat (a b : ℕ) : Type := (⟨2, ![a, b]⟩ : Shape).Idx → EReal

/-- The floor of the rectifier: what the zero word of the 32-bit float format denotes (never evaluated: the same word
    stands on both sides of every equation). -/
def floor0 : EReal := Ideal.ofBits .f32 0x00000000#32

/-- The matrix product: entry (p, o) is the sum over j of a(p, j) * w(j, o). -/
def mm {n k d : ℕ} (a : Mat n k) (w : Mat k d) : Mat n d :=
  fun i => ∑ j : Fin k, a (ix2 (i 0) j) * w (ix2 j (i 1))

/-- A one-row matrix added to every row: entry (p, j) gains b(0, j). -/
def addRow {n k : ℕ} (a : Mat n k) (b : Mat 1 k) : Mat n k :=
  fun i => a i + b (ix2 (0 : Fin 1) (i 1))

/-- Every entry floored at zero. -/
def relu {n k : ℕ} (a : Mat n k) : Mat n k := fun i => max (a i) floor0

/-! ## One row at a time -/

/-- Row q of ab is row p of a. -/
def RowEq {m n k : ℕ} (ab : Mat m k) (q : Fin m) (a : Mat n k) (p : Fin n) : Prop :=
  ∀ j : Fin k, ab (ix2 q j) = a (ix2 p j)

theorem mm_row {m n k d : ℕ} {ab : Mat m k} {q : Fin m} {a : Mat n k} {p : Fin n} (h : RowEq ab q a p) (w : Mat k d) :
    RowEq (mm ab w) q (mm a w) p := fun o => by
  show ∑ j : Fin k, ab (ix2 q j) * w (ix2 j o) = ∑ j : Fin k, a (ix2 p j) * w (ix2 j o)
  exact Finset.sum_congr rfl fun j _ => by rw [h j]

theorem addRow_row {m n k : ℕ} {ab : Mat m k} {q : Fin m} {a : Mat n k} {p : Fin n} (h : RowEq ab q a p) (b : Mat 1 k) :
    RowEq (addRow ab b) q (addRow a b) p := fun j => by
  show ab (ix2 q j) + b (ix2 (0 : Fin 1) j) = a (ix2 p j) + b (ix2 (0 : Fin 1) j)
  rw [h j]

theorem relu_row {m n k : ℕ} {ab : Mat m k} {q : Fin m} {a : Mat n k} {p : Fin n} (h : RowEq ab q a p) :
    RowEq (relu ab) q (relu a) p := fun j => by
  show max (ab (ix2 q j)) floor0 = max (a (ix2 p j)) floor0
  rw [h j]

/-! ## The machine's operations are these functions -/

/-- A matrix unit's product into the zero accumulator is the matrix product, whatever the operands' formats. -/
theorem matmul_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    matmul D prec l r (constant ⟨2, ![n, d]⟩ .f32 0x00000000#32) = mm l r := by
  funext i
  obtain ⟨p, o, rfl⟩ : ∃ (p : Fin n) (o : Fin d), i = ix2 p o := ⟨i 0, i 1, eq_ix2 i⟩
  exact Cert.LibPlainDot.matmul_zero_apply D hlc hrc hln hrn hlb hrb prec l r p o

/-- The host's contraction with the same dimension numbers is the matrix product. -/
theorem dotGeneral_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    Host.dotGeneral D prec l r = mm l r := by
  funext i
  obtain ⟨p, o, rfl⟩ : ∃ (p : Fin n) (o : Fin d), i = ix2 p o := ⟨i 0, i 1, eq_ix2 i⟩
  exact Cert.LibPlainDot.dotGeneral_apply D hlc hrc hln hrn hlb hrb prec .single l r p o

/-- Adding a one-row matrix spread over the rows is `addRow`. -/
theorem addf_spread_eq_addRow {n k : ℕ} (h : (⟨2, ![1, k]⟩ : Shape).Broadcasts ⟨2, ![n, k]⟩)
    (a : FVec Ideal ⟨2, ![n, k]⟩ .f32) (b : FVec Ideal ⟨2, ![1, k]⟩ .f32) :
    addf a (broadcastTo ⟨2, ![n, k]⟩ b h) = addRow a b := by
  funext i
  obtain ⟨p, j, rfl⟩ : ∃ (p : Fin n) (j : Fin k), i = ix2 p j := ⟨i 0, i 1, eq_ix2 i⟩
  show a (ix2 p j) + broadcastTo ⟨2, ![n, k]⟩ b h (ix2 p j) = a (ix2 p j) + b (ix2 (0 : Fin 1) j)
  rw [Cert.LibBiasRow.row_spread_apply h b p j]

/-- The maximum against a splat of the zero word is `relu`. -/
theorem maximumf_zero_eq_relu {n k : ℕ} (a : FVec Ideal ⟨2, ![n, k]⟩ .f32) :
    maximumf a (broadcast ⟨2, ![n, k]⟩ (Scalar.ofBits (F := Ideal) .f32 0x00000000#32)) = relu a := rfl

/-- A change to a narrower float format changes no extended real. -/
theorem truncf_eq {s : Shape} {φ ψ : FTy} (a : FVec Ideal s φ) (h : ψ.bits < φ.bits) :
    (truncf ψ a h : FVec Ideal s ψ) = a := rfl

/-! ## The host program's spellings -/

/-- Adding a vector placed as a row and spread over the rows is `addRow` of the vector reshaped to a row. -/
theorem addf_hostBias_eq_addRow {n k : ℕ} (h1 : (⟨1, ![k]⟩ : Shape).BroadcastsInDim ⟨2, ![1, k]⟩ ![1])
    (h2 : (⟨2, ![1, k]⟩ : Shape).BroadcastsInDim ⟨2, ![n, k]⟩ ![0, 1]) (hc : (⟨1, ![k]⟩ : Shape).ShapeCasts ⟨2, ![1, k]⟩)
    (a : FVec Ideal ⟨2, ![n, k]⟩ .f32) (v : FVec Ideal ⟨1, ![k]⟩ .f32) :
    addf a (broadcastInDim ⟨2, ![n, k]⟩ ![0, 1] h2 (broadcastInDim ⟨2, ![1, k]⟩ ![1] h1 v))
      = addRow a (shapeCast ⟨2, ![1, k]⟩ v hc) := by
  funext i
  obtain ⟨p, j, rfl⟩ : ∃ (p : Fin n) (j : Fin k), i = ix2 p j := ⟨i 0, i 1, eq_ix2 i⟩
  show a (ix2 p j) + broadcastInDim ⟨2, ![n, k]⟩ ![0, 1] h2 (broadcastInDim ⟨2, ![1, k]⟩ ![1] h1 v) (ix2 p j)
    = a (ix2 p j) + shapeCast ⟨2, ![1, k]⟩ v hc (ix2 (0 : Fin 1) j)
  rw [Cert.LibRowBroadcast.row_mat_apply h2 _ p j, Cert.LibRowBroadcast.vec_row_apply h1 v 0 j,
    Cert.LibBiasRow.vec_as_row_apply hc v 0 j]

/-- The maximum against the zero word spread from a scalar is `relu`. -/
theorem maximumf_hostZero_eq_relu {n k : ℕ} (h : (⟨0, ![]⟩ : Shape).BroadcastsInDim ⟨2, ![n, k]⟩ ![])
    (a : FVec Ideal ⟨2, ![n, k]⟩ .f32) :
    maximumf a (broadcastInDim ⟨2, ![n, k]⟩ ![] h (constant (F := Ideal) ⟨0, ![]⟩ .f32 0x00000000#32)) = relu a := by
  funext i
  show max (a i) (broadcastInDim ⟨2, ![n, k]⟩ ![] h (constant (F := Ideal) ⟨0, ![]⟩ .f32 0x00000000#32) i) = max (a i) floor0
  rw [broadcastInDim_apply ![] h _ i ix0 (fun a => a.elim0)]
  rfl

end Cert.LibRowStages

end
-- ==== Proof.LibDualLayer.lean ====
/-
  Two matrices through two weight matrices: the sum of the two products, a bias row added to every row, the floor at zero;
  and one matrix through one weight matrix with a bias row and no floor.

  On the extended reals, for an [n, k1] matrix a, an [n, k2] matrix b, weights wa of [k1, d] and wb of [k2, d] and a one-row
  bias, `dual` has at (p, o) the value  max((sum over j of a(p, j) * wa(j, o) + sum over j of b(p, j) * wb(j, o)) + bias(0, o), 0),
  and `lin` has  sum over j of a(p, j) * w(j, o) + bias(0, o).  Row p of either depends on row p of the matrix operands
  only (`dual_row`, `lin_row`), so a block of rows put through the stage is the same rows of the stage of the whole
  matrix.  Adding the bias row between the two products instead of after them gives the same matrix (`biasBetween_eq_dual`):
  addition of extended reals is commutative and associative, nothing is distributed or cancelled, so this holds at the
  infinities too.

  A matrix unit spells `dual` as two products into zero accumulators (operands of any float formats), their sum, the bias
  row spread over the rows and added, and the maximum against a splat of the zero word (`unit_dual`); a host program
  spells it as a contraction, the bias vector placed as a row, spread and added, the second contraction added, and the
  maximum against the zero word spread from a scalar (`host_dual`), its bias row the vector reshaped to one row.
  `unit_lin` and `host_lin` are the same two spellings of `lin`.
-/
import Idealize.ShloMosaic.PureOps.Ideal
import Idealize.ShloMosaic.Lib.ValueIdx
import Idealize.ShloMosaic.Lib.Pipeline.Value
import proofs.«101142_j61718680044159_1_alg».proof.Proof.LibRowStages

noncomputable section

open scoped BigOperators

namespace Cert.LibDualLayer

open Idealize.ShloMosaic Idealize.ShloMosaic.ValueIdx Cert.LibRowStages

/-- The entrywise sum of two matrices. -/
def madd {n k : ℕ} (x y : Mat n k) : Mat n k := fun i => x i + y i

theorem madd_row {m n k : ℕ} {xb yb : Mat m k} {q : Fin m} {x y : Mat n k} {p : Fin n}
    (hx : RowEq xb q x p) (hy : RowEq yb q y p) : RowEq (madd xb yb) q (madd x y) p := fun j => by
  show xb (ix2 q j) + yb (ix2 q j) = x (ix2 p j) + y (ix2 p j)
  rw [hx j, hy j]

/-- Two products summed, the bias row added, the floor at zero. -/
def dual {n k1 k2 d : ℕ} (a : Mat n k1) (b : Mat n k2) (wa : Mat k1 d) (wb : Mat k2 d) (bias : Mat 1 d) : Mat n d :=
  relu (addRow (madd (mm a wa) (mm b wb)) bias)

/-- One product with the bias row added. -/
def lin {n k d : ℕ} (a : Mat n k) (w : Mat k d) (bias : Mat 1 d) : Mat n d := addRow (mm a w) bias

/-- `dual` works one row at a time. -/
theorem dual_row {m n k1 k2 d : ℕ} {ab : Mat m k1} {bb : Mat m k2} {q : Fin m} {a : Mat n k1} {b : Mat n k2} {p : Fin n}
    (ha : RowEq ab q a p) (hb : RowEq bb q b p) (wa : Mat k1 d) (wb : Mat k2 d) (bias : Mat 1 d) :
    RowEq (dual ab bb wa wb bias) q (dual a b wa wb bias) p :=
  relu_row (addRow_row (madd_row (mm_row ha wa) (mm_row hb wb)) bias)

/-- `lin` works one row at a time. -/
theorem lin_row {m n k d : ℕ} {ab : Mat m k} {q : Fin m} {a : Mat n k} {p : Fin n} (h : RowEq ab q a p)
    (w : Mat k d) (bias : Mat 1 d) : RowEq (lin ab w bias) q (lin a w bias) p :=
  addRow_row (mm_row h w) bias

/-- The bias row added between the two products instead of after them: the same matrix. -/
theorem biasBetween_eq_dual {n k1 k2 d : ℕ} (a : Mat n k1) (b : Mat n k2) (wa : Mat k1 d) (wb : Mat k2 d) (bias : Mat 1 d) :
    relu (madd (addRow (mm a wa) bias) (mm b wb)) = dual a b wa wb bias := by
  funext i
  show max ((mm a wa i + bias (ix2 (0 : Fin 1) (i 1))) + mm b wb i) floor0
    = max ((mm a wa i + mm b wb i) + bias (ix2 (0 : Fin 1) (i 1))) floor0
  rw [add_right_comm]

/-- `dual` at an entry depends on row (y 0) of the matrix operands, column (y 1) of the weights and entry (0, y 1) of the
    bias row: two sets of operands that agree there give the same entry. -/
theorem dual_apply_congr {m n k1 k2 d : ℕ} (ab : Mat m k1) (bb : Mat m k2) (wa' : Mat k1 d) (wb' : Mat k2 d) (bias' : Mat 1 d)
    (a : Mat n k1) (b : Mat n k2) (wa : Mat k1 d) (wb : Mat k2 d) (bias : Mat 1 d)
    (y : (⟨2, ![m, d]⟩ : Shape).Idx) (i : (⟨2, ![n, d]⟩ : Shape).Idx)
    (ha : ∀ j : Fin k1, ab (ix2 (y 0) j) = a (ix2 (i 0) j)) (hb : ∀ j : Fin k2, bb (ix2 (y 0) j) = b (ix2 (i 0) j))
    (hwa : ∀ j : Fin k1, wa' (ix2 j (y 1)) = wa (ix2 j (i 1))) (hwb : ∀ j : Fin k2, wb' (ix2 j (y 1)) = wb (ix2 j (i 1)))
    (hbias : bias' (ix2 (0 : Fin 1) (y 1)) = bias (ix2 (0 : Fin 1) (i 1))) :
    dual ab bb wa' wb' bias' y = dual a b wa wb bias i := by
  show max ((∑ j : Fin k1, ab (ix2 (y 0) j) * wa' (ix2 j (y 1)) + ∑ j : Fin k2, bb (ix2 (y 0) j) * wb' (ix2 j (y 1)))
        + bias' (ix2 (0 : Fin 1) (y 1))) floor0
    = max ((∑ j : Fin k1, a (ix2 (i 0) j) * wa (ix2 j (i 1)) + ∑ j : Fin k2, b (ix2 (i 0) j) * wb (ix2 j (i 1)))
        + bias (ix2 (0 : Fin 1) (i 1))) floor0
  simp only [ha, hb, hwa, hwb, hbias]

/-- `lin` at an entry depends on row (y 0) of the matrix operand, column (y 1) of the weights and entry (0, y 1) of the
    bias row. -/
theorem lin_apply_congr {m n k d : ℕ} (ab : Mat m k) (w' : Mat k d) (bias' : Mat 1 d)
    (a : Mat n k) (w : Mat k d) (bias : Mat 1 d)
    (y : (⟨2, ![m, d]⟩ : Shape).Idx) (i : (⟨2, ![n, d]⟩ : Shape).Idx)
    (ha : ∀ j : Fin k, ab (ix2 (y 0) j) = a (ix2 (i 0) j))
    (hw : ∀ j : Fin k, w' (ix2 j (y 1)) = w (ix2 j (i 1)))
    (hbias : bias' (ix2 (0 : Fin 1) (y 1)) = bias (ix2 (0 : Fin 1) (i 1))) :
    lin ab w' bias' y = lin a w bias i := by
  show (∑ j : Fin k, ab (ix2 (y 0) j) * w' (ix2 j (y 1))) + bias' (ix2 (0 : Fin 1) (y 1))
    = (∑ j : Fin k, a (ix2 (i 0) j) * w (ix2 j (i 1))) + bias (ix2 (0 : Fin 1) (i 1))
  simp only [ha, hw, hbias]

/-- The entrywise float sum of two matrices of extended reals is their entrywise sum. -/
theorem addf_eq_madd {n k : ℕ} (x y : FVec Ideal ⟨2, ![n, k]⟩ .f32) : addf x y = madd x y := rfl

/-! ## The machine's two spellings -/

/-- A matrix unit's `dual`: two products into zero accumulators, summed, the bias row spread and added, the maximum
    against a splat of the zero word.  Whatever the operands' float formats. -/
theorem unit_dual {n k1 k2 d : ℕ} {φ₁ φ₂ φ₃ φ₄ : FTy}
    (Da : DotDims ⟨2, ![n, k1]⟩ ⟨2, ![k1, d]⟩ ⟨2, ![n, d]⟩) (Db : DotDims ⟨2, ![n, k2]⟩ ⟨2, ![k2, d]⟩ ⟨2, ![n, d]⟩)
    (ha1 : Da.lhsContracting = [1]) (ha2 : Da.rhsContracting = [0]) (ha3 : Da.lhsNonContracting = [0])
    (ha4 : Da.rhsNonContracting = [1]) (ha5 : Da.lhsBatch = []) (ha6 : Da.rhsBatch = [])
    (hb1 : Db.lhsContracting = [1]) (hb2 : Db.rhsContracting = [0]) (hb3 : Db.lhsNonContracting = [0])
    (hb4 : Db.rhsNonContracting = [1]) (hb5 : Db.lhsBatch = []) (hb6 : Db.rhsBatch = [])
    (hs : (⟨2, ![1, d]⟩ : Shape).Broadcasts ⟨2, ![n, d]⟩)
    (a : FVec Ideal ⟨2, ![n, k1]⟩ φ₁) (wa : FVec Ideal ⟨2, ![k1, d]⟩ φ₂)
    (b : FVec Ideal ⟨2, ![n, k2]⟩ φ₃) (wb : FVec Ideal ⟨2, ![k2, d]⟩ φ₄) (bias : FVec Ideal ⟨2, ![1, d]⟩ .f32) :
    maximumf (addf (addf (matmul Da none a wa (constant ⟨2, ![n, d]⟩ .f32 0x00000000#32))
            (matmul Db none b wb (constant ⟨2, ![n, d]⟩ .f32 0x00000000#32)))
          (broadcastTo ⟨2, ![n, d]⟩ bias hs))
        (broadcast ⟨2, ![n, d]⟩ (Scalar.ofBits (F := Ideal) .f32 0x00000000#32))
      = dual a b wa wb bias := by
  rw [matmul_eq_mm Da ha1 ha2 ha3 ha4 ha5 ha6 none a wa, matmul_eq_mm Db hb1 hb2 hb3 hb4 hb5 hb6 none b wb,
    addf_spread_eq_addRow hs, addf_eq_madd, maximumf_zero_eq_relu]
  rfl

/-- A host program's `dual`: a contraction, the bias vector placed as a row, spread over the rows and added, the second
    contraction added, the maximum against the zero word spread from a scalar.  The bias row is the vector reshaped to
    one row. -/
theorem host_dual {n k1 k2 d : ℕ} {φ₁ φ₂ φ₃ φ₄ : FTy}
    (Da : DotDims ⟨2, ![n, k1]⟩ ⟨2, ![k1, d]⟩ ⟨2, ![n, d]⟩) (Db : DotDims ⟨2, ![n, k2]⟩ ⟨2, ![k2, d]⟩ ⟨2, ![n, d]⟩)
    (ha1 : Da.lhsContracting = [1]) (ha2 : Da.rhsContracting = [0]) (ha3 : Da.lhsNonContracting = [0])
    (ha4 : Da.rhsNonContracting = [1]) (ha5 : Da.lhsBatch = []) (ha6 : Da.rhsBatch = [])
    (hb1 : Db.lhsContracting = [1]) (hb2 : Db.rhsContracting = [0]) (hb3 : Db.lhsNonContracting = [0])
    (hb4 : Db.rhsNonContracting = [1]) (hb5 : Db.lhsBatch = []) (hb6 : Db.rhsBatch = [])
    (h1 : (⟨1, ![d]⟩ : Shape).BroadcastsInDim ⟨2, ![1, d]⟩ ![1])
    (h2 : (⟨2, ![1, d]⟩ : Shape).BroadcastsInDim ⟨2, ![n, d]⟩ ![0, 1])
    (h0 : (⟨0, ![]⟩ : Shape).BroadcastsInDim ⟨2, ![n, d]⟩ ![])
    (hc : (⟨1, ![d]⟩ : Shape).ShapeCasts ⟨2, ![1, d]⟩)
    (a : FVec Ideal ⟨2, ![n, k1]⟩ φ₁) (wa : FVec Ideal ⟨2, ![k1, d]⟩ φ₂)
    (b : FVec Ideal ⟨2, ![n, k2]⟩ φ₃) (wb : FVec Ideal ⟨2, ![k2, d]⟩ φ₄) (v : FVec Ideal ⟨1, ![d]⟩ .f32) :
    maximumf (addf (addf (Host.dotGeneral Da none a wa)
            (broadcastInDim ⟨2, ![n, d]⟩ ![0, 1] h2 (broadcastInDim ⟨2, ![1, d]⟩ ![1] h1 v)))
          (Host.dotGeneral Db none b wb))
        (broadcastInDim ⟨2, ![n, d]⟩ ![] h0 (constant (F := Ideal) ⟨0, ![]⟩ .f32 0x00000000#32))
      = dual a b wa wb (shapeCast ⟨2, ![1, d]⟩ v hc) := by
  rw [dotGeneral_eq_mm Da ha1 ha2 ha3 ha4 ha5 ha6 none a wa, dotGeneral_eq_mm Db hb1 hb2 hb3 hb4 hb5 hb6 none b wb,
    addf_hostBias_eq_addRow h1 h2 hc, addf_eq_madd, maximumf_hostZero_eq_relu h0]
  exact biasBetween_eq_dual a b wa wb (shapeCast ⟨2, ![1, d]⟩ v hc)

/-- A matrix unit's `lin`: the product into the zero accumulator, the bias row spread over the rows and added. -/
theorem unit_lin {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (hs : (⟨2, ![1, d]⟩ : Shape).Broadcasts ⟨2, ![n, d]⟩)
    (a : FVec Ideal ⟨2, ![n, k]⟩ φ₁) (w : FVec Ideal ⟨2, ![k, d]⟩ φ₂) (bias : FVec Ideal ⟨2, ![1, d]⟩ .f32) :
    addf (matmul D none a w (constant ⟨2, ![n, d]⟩ .f32 0x00000000#32)) (broadcastTo ⟨2, ![n, d]⟩ bias hs)
      = lin a w bias := by
  rw [matmul_eq_mm D hlc hrc hln hrn hlb hrb none a w, addf_spread_eq_addRow hs]
  rfl

/-- A host program's `lin`: the contraction, the bias vector placed as a row, spread over the rows and added. -/
theorem host_lin {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (h1 : (⟨1, ![d]⟩ : Shape).BroadcastsInDim ⟨2, ![1, d]⟩ ![1])
    (h2 : (⟨2, ![1, d]⟩ : Shape).BroadcastsInDim ⟨2, ![n, d]⟩ ![0, 1])
    (hc : (⟨1, ![d]⟩ : Shape).ShapeCasts ⟨2, ![1, d]⟩)
    (a : FVec Ideal ⟨2, ![n, k]⟩ φ₁) (w : FVec Ideal ⟨2, ![k, d]⟩ φ₂) (v : FVec Ideal ⟨1, ![d]⟩ .f32) :
    addf (Host.dotGeneral D none a w)
        (broadcastInDim ⟨2, ![n, d]⟩ ![0, 1] h2 (broadcastInDim ⟨2, ![1, d]⟩ ![1] h1 v))
      = lin a w (shapeCast ⟨2, ![1, d]⟩ v hc) := by
  rw [dotGeneral_eq_mm D hlc hrc hln hrn hlb hrb none a w, addf_hostBias_eq_addRow h1 h2 hc]
  rfl

end Cert.LibDualLayer

end
-- ==== Proof.Spec.lean ====
/-
  The network both programs compute, as one function of the fifteen argument arrays.

  A graph convolution takes, for every destination row, the mean over incoming edges of the source matrix's rows (the rows
  gathered at the edges' source indices, summed into the edges' destination rows, each row sum divided by the larger of the
  number of edges arriving there and one), multiplies it by the transposed left weights, adds the destination matrix's rows
  times the transposed right weights and the bias, and floors at zero.  The mean over edges is kept as one closed chain of
  host operations and never opened: both programs apply the same chain.  The network is: a convolution of the first feature
  matrix onto itself over the first edge array, a convolution of the first onto the second over the second edge array, a
  convolution of the first result onto the second over the second edge array, and a linear head.
-/
import proofs.«101142_j61718680044159_1_alg».proof.Proof.Gen.KernelIdeal
import Idealize.ShloMosaic.PureOps.Ideal
import proofs.«101142_j61718680044159_1_alg».proof.Proof.LibDualLayer

noncomputable section

namespace Cert.KernelIdeal.Spec

open Cert.KernelIdeal Cert.KernelIdeal.Gen
open Idealize.ShloMosaic Idealize.ShloMosaic.TcCoe
open Cert.LibRowStages Cert.LibDualLayer

/-- The mean over incoming edges of the rows of a [20000, 256] matrix. -/
def segMean256 (x : (⟨S20000x256, .f32⟩ : BufTy).Contents (Elt Ideal)) (e : (⟨S2x320000, .i32⟩ : BufTy).Contents (Elt Ideal)) :
    (⟨S20000x256, .f32⟩ : BufTy).Contents (Elt Ideal) :=
  (Host.divf (Host.scatterAdd scatter_S20000x256_S320000x1_S320000x256_1_0_0_1 (broadcastInDim S20000x256 ![] bcast_S_S20000x256 (constant (F := Ideal) S_ .f32 0x00000000#32)) (broadcastInDim S320000x1 ![0] bcast_S320000_S320000x1_0 (shapeCast _ (extractStridedSlice S1x320000 ![1, 0] e slices_S2x320000_S1x320000_1_0) shapeCasts_S1x320000_S320000)) (Host.gather gather_S20000x256_S320000x1_S320000x256_1_0_n_n_0_1_1256 x (broadcastInDim S320000x1 ![0] bcast_S320000_S320000x1_0 (select (cmpi .slt (shapeCast _ (extractStridedSlice S1x320000 ![0, 0] e slices_S2x320000_S1x320000_0_0) shapeCasts_S1x320000_S320000) (broadcastInDim S320000 ![] bcast_S_S320000 (constantI S_ 32 0#32))) (addi (shapeCast _ (extractStridedSlice S1x320000 ![0, 0] e slices_S2x320000_S1x320000_0_0) shapeCasts_S1x320000_S320000) (broadcastInDim S320000 ![] bcast_S_S320000 (constantI S_ 32 20000#32))) (shapeCast _ (extractStridedSlice S1x320000 ![0, 0] e slices_S2x320000_S1x320000_0_0) shapeCasts_S1x320000_S320000))))) (broadcastInDim S20000x256 ![0, 1] bcast_S20000x1_S20000x256_0_1 (broadcastInDim S20000x1 ![0] bcast_S20000_S20000x1_0 (maximumf (Host.scatterAdd scatter_S20000_S320000x1_S320000_n_0_0_1 (broadcastInDim S20000 ![] bcast_S_S20000 (constant (F := Ideal) S_ .f32 0x00000000#32)) (broadcastInDim S320000x1 ![0] bcast_S320000_S320000x1_0 (shapeCast _ (extractStridedSlice S1x320000 ![1, 0] e slices_S2x320000_S1x320000_1_0) shapeCasts_S1x320000_S320000)) (broadcastInDim S320000 ![] bcast_S_S320000 (constant (F := Ideal) S_ .f32 0x3F800000#32))) (broadcastInDim S20000 ![] bcast_S_S20000 (constant (F := Ideal) S_ .f32 0x3F800000#32))))))

/-- The mean over incoming edges of the rows of a [20000, 512] matrix. -/
def segMean512 (x : (⟨S20000x512, .f32⟩ : BufTy).Contents (Elt Ideal)) (e : (⟨S2x320000, .i32⟩ : BufTy).Contents (Elt Ideal)) :
    (⟨S20000x512, .f32⟩ : BufTy).Contents (Elt Ideal) :=
  (Host.divf (Host.scatterAdd scatter_S20000x512_S320000x1_S320000x512_1_0_0_1 (broadcastInDim S20000x512 ![] bcast_S_S20000x512 (constant (F := Ideal) S_ .f32 0x00000000#32)) (broadcastInDim S320000x1 ![0] bcast_S320000_S320000x1_0 (shapeCast _ (extractStridedSlice S1x320000 ![1, 0] e slices_S2x320000_S1x320000_1_0) shapeCasts_S1x320000_S320000)) (Host.gather gather_S20000x512_S320000x1_S320000x512_1_0_n_n_0_1_1512 x (broadcastInDim S320000x1 ![0] bcast_S320000_S320000x1_0 (select (cmpi .slt (shapeCast _ (extractStridedSlice S1x320000 ![0, 0] e slices_S2x320000_S1x320000_0_0) shapeCasts_S1x320000_S320000) (broadcastInDim S320000 ![] bcast_S_S320000 (constantI S_ 32 0#32))) (addi (shapeCast _ (extractStridedSlice S1x320000 ![0, 0] e slices_S2x320000_S1x320000_0_0) shapeCasts_S1x320000_S320000) (broadcastInDim S320000 ![] bcast_S_S320000 (constantI S_ 32 20000#32))) (shapeCast _ (extractStridedSlice S1x320000 ![0, 0] e slices_S2x320000_S1x320000_0_0) shapeCasts_S1x320000_S320000))))) (broadcastInDim S20000x512 ![0, 1] bcast_S20000x1_S20000x512_0_1 (broadcastInDim S20000x1 ![0] bcast_S20000_S20000x1_0 (maximumf (Host.scatterAdd scatter_S20000_S320000x1_S320000_n_0_0_1 (broadcastInDim S20000 ![] bcast_S_S20000 (constant (F := Ideal) S_ .f32 0x00000000#32)) (broadcastInDim S320000x1 ![0] bcast_S320000_S320000x1_0 (shapeCast _ (extractStridedSlice S1x320000 ![1, 0] e slices_S2x320000_S1x320000_1_0) shapeCasts_S1x320000_S320000)) (broadcastInDim S320000 ![] bcast_S_S320000 (constant (F := Ideal) S_ .f32 0x3F800000#32))) (broadcastInDim S20000 ![] bcast_S_S20000 (constant (F := Ideal) S_ .f32 0x3F800000#32))))))

/-- One graph convolution on 256 features: the mean over incoming edges of the source rows through the transposed left
    weights, the destination rows through the transposed right weights, their sum, the bias added, the floor at zero. -/
def conv256 (x xd : (⟨S20000x256, .f32⟩ : BufTy).Contents (Elt Ideal)) (e : (⟨S2x320000, .i32⟩ : BufTy).Contents (Elt Ideal))
    (wl wr : (⟨S512x256, .f32⟩ : BufTy).Contents (Elt Ideal)) (bl : (⟨S512, .f32⟩ : BufTy).Contents (Elt Ideal)) : S20000x512.Idx → EReal :=
  dual (n := 20000) (k1 := 256) (k2 := 256) (d := 512) (segMean256 x e) xd (transpose S256x512 [1, 0] wl transposes_S512x256_S256x512_1_0) (transpose S256x512 [1, 0] wr transposes_S512x256_S256x512_1_0) (shapeCast S1x512 bl shapeCasts_S512_S1x512)

/-- The same convolution on 512 features. -/
def conv512 (x xd : (⟨S20000x512, .f32⟩ : BufTy).Contents (Elt Ideal)) (e : (⟨S2x320000, .i32⟩ : BufTy).Contents (Elt Ideal))
    (wl wr : (⟨S512x512, .f32⟩ : BufTy).Contents (Elt Ideal)) (bl : (⟨S512, .f32⟩ : BufTy).Contents (Elt Ideal)) : S20000x512.Idx → EReal :=
  dual (n := 20000) (k1 := 512) (k2 := 512) (d := 512) (segMean512 x e) xd (transpose S512x512 [1, 0] wl transposes_S512x512_S512x512_1_0) (transpose S512x512 [1, 0] wr transposes_S512x512_S512x512_1_0) (shapeCast S1x512 bl shapeCasts_S512_S1x512)

/-- The final linear layer: the rows through the transposed weights, the bias added. -/
def head (x : (⟨S20000x512, .f32⟩ : BufTy).Contents (Elt Ideal)) (w : (⟨S256x512, .f32⟩ : BufTy).Contents (Elt Ideal)) (b : (⟨S256, .f32⟩ : BufTy).Contents (Elt Ideal)) : S20000x256.Idx → EReal :=
  lin (n := 20000) (k := 512) (d := 256) x (transpose S512x256 [1, 0] w transposes_S256x512_S512x256_1_0) (shapeCast S1x256 b shapeCasts_S256_S1x256)

/-- The whole network as one function of the fifteen argument arrays: two convolutions of the first feature matrix (onto
    itself and onto the second), a convolution of the first result onto the second, the linear head. -/
def spec (a0 a1 : (⟨S20000x256, .f32⟩ : BufTy).Contents (Elt Ideal)) (e2 e3 : (⟨S2x320000, .i32⟩ : BufTy).Contents (Elt Ideal))
    (a4 : (⟨S512x256, .f32⟩ : BufTy).Contents (Elt Ideal)) (a5 : (⟨S512, .f32⟩ : BufTy).Contents (Elt Ideal)) (a6 a7 : (⟨S512x256, .f32⟩ : BufTy).Contents (Elt Ideal)) (a8 : (⟨S512, .f32⟩ : BufTy).Contents (Elt Ideal)) (a9 : (⟨S512x256, .f32⟩ : BufTy).Contents (Elt Ideal))
    (a10 : (⟨S512x512, .f32⟩ : BufTy).Contents (Elt Ideal)) (a11 : (⟨S512, .f32⟩ : BufTy).Contents (Elt Ideal)) (a12 : (⟨S512x512, .f32⟩ : BufTy).Contents (Elt Ideal)) (a13 : (⟨S256x512, .f32⟩ : BufTy).Contents (Elt Ideal)) (a14 : (⟨S256, .f32⟩ : BufTy).Contents (Elt Ideal)) :
    S20000x256.Idx → EReal :=
  head (conv512 (conv256 a0 a0 e2 a4 a6 a5) (conv256 a0 a1 e3 a7 a9 a8) e3 a10 a12 a11) a13 a14

end Cert.KernelIdeal.Spec

end
-- ==== Proof.Layer0.lean ====
/-
  The first dense layer's region, read as one matrix.

  The region's grid has twenty points; point t takes rows 1000 t … 1000 t + 999 of the two [20000, 256] matrix operands,
  the whole of both [256, 512] weight matrices and the whole one-row bias, and writes rows 1000 t … 1000 t + 999 of the
  [20000, 512] result.  On the extended reals the body computes, on its block of rows, the two products summed, the bias row
  added and the floor at zero; since that works one row at a time, the block written is the same rows of the stage applied
  to the whole matrices, and the twenty blocks tile the result.  So whatever the buffers hold when the region is entered,
  the result array ends as that stage of the five operand arrays.
-/
import proofs.«101142_j61718680044159_1_alg».proof.Proof.Gen.KernelIdeal.Frame
import proofs.«101142_j61718680044159_1_alg».proof.Proof.LibDualLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen Cert.LibRowStages Cert.LibDualLayer

variable (V : (c : Dev nD) → (b : Ref sig .tc) → Buf (Elt Ideal) ((c : Thread nD τ).loc b))

theorem hz : (![0, 0] : Fin 2 → Nat) = fun _ => 0 := funext fun a => by fin_cases a <;> rfl

/-- On the extended reals the body's stored value is the stage of its five loaded blocks. -/
theorem pay_eq (v0 v3 : Vec Ideal S1000x256 .f32) (v5 v8 : Vec Ideal S256x512 .f32) (v14 : Vec Ideal S1x512 .f32) :
    k0_pay1 (F := Ideal) v0 v3 v5 v8 v14 = dual v0 v3 v5 v8 v14 := by
  unfold k0_pay1
  simp only [shapeCast_self]
  exact unit_dual dot_S1000x256_S256x512_S1000x512_1_0_0_1_n_n dot_S1000x256_S256x512_S1000x512_1_0_0_1_n_n
    rfl rfl rfl rfl rfl rfl rfl rfl rfl rfl rfl rfl broadcasts_S1x512_S1000x512 _ _ _ _ _

/-- The printed index maps over the grid: the two matrix operands and the result move with the point along the rows,
    the weights and the bias stay at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first matrix operand's block at point t is rows 1000 t … 1000 t + 999 of its array. -/
theorem blk_a (c : Dev nD) (t : Fin cfg0.N) (x : S1000x256.Idx) (k : S20000x256.Idx)
    (h0 : (k 0).val = 1000 * t.val + (x 0).val) (h1 : (k 1).val = (x 1).val) :
    (iblk0 V c 0 t : Vec Ideal S1000x256 .f32) x = (V c main_v22 : S20000x256.Idx → EReal) k := by
  obtain ⟨e0, e1, -⟩ := idx_facts t
  unfold iblk0
  rw [View.read_apply]
  show V c main_v22 _ = V c main_v22 _
  congr 1
  funext a
  apply Fin.ext
  match a with
  | ⟨0, _⟩ => show win0_0.index t 0 * 1000 + 1 * (x 0).val = (k 0).val; rw [e0, h0]; omega
  | ⟨1, _⟩ => show win0_0.index t 1 * 256 + 1 * (x 1).val = (k 1).val; rw [e1, h1]; omega

/-- The second matrix operand's block at point t is rows 1000 t … 1000 t + 999 of its array. -/
theorem blk_b (c : Dev nD) (t : Fin cfg0.N) (x : S1000x256.Idx) (k : S20000x256.Idx)
    (h0 : (k 0).val = 1000 * t.val + (x 0).val) (h1 : (k 1).val = (x 1).val) :
    (iblk0 V c 1 t : Vec Ideal S1000x256 .f32) x = (V c main_arg0 : S20000x256.Idx → EReal) k := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t 0 * 1000 + 1 * (x 0).val = (k 0).val; rw [e0, h0]; omega
  | ⟨1, _⟩ => show win0_1.index t 1 * 256 + 1 * (x 1).val = (k 1).val; rw [e1, h1]; omega

/-- The first weight matrix's block at every point is the whole matrix. -/
theorem blk_wa (c : Dev nD) (t : Fin cfg0.N) (x k : S256x512.Idx)
    (h0 : (k 0).val = (x 0).val) (h1 : (k 1).val = (x 1).val) :
    (iblk0 V c 2 t : Vec Ideal S256x512 .f32) x = (V c main_v23 : S256x512.Idx → EReal) k := by
  obtain ⟨-, -, -, -, e0, e1, -⟩ := idx_facts t
  unfold iblk0
  rw [View.read_apply]
  show V c main_v23 _ = V c main_v23 _
  congr 1
  funext a
  apply Fin.ext
  match a with
  | ⟨0, _⟩ => show win0_2.index t 0 * 256 + 1 * (x 0).val = (k 0).val; rw [e0, h0]; omega
  | ⟨1, _⟩ => show win0_2.index t 1 * 512 + 1 * (x 1).val = (k 1).val; rw [e1, h1]; omega

/-- The second weight matrix's block at every point is the whole matrix. -/
theorem blk_wb (c : Dev nD) (t : Fin cfg0.N) (x k : S256x512.Idx)
    (h0 : (k 0).val = (x 0).val) (h1 : (k 1).val = (x 1).val) :
    (iblk0 V c 3 t : Vec Ideal S256x512 .f32) x = (V c main_v24 : S256x512.Idx → EReal) k := by
  obtain ⟨-, -, -, -, -, -, e0, e1, -⟩ := idx_facts t
  unfold iblk0
  rw [View.read_apply]
  show V c main_v24 _ = V c main_v24 _
  congr 1
  funext a
  apply Fin.ext
  match a with
  | ⟨0, _⟩ => show win0_3.index t 0 * 256 + 1 * (x 0).val = (k 0).val; rw [e0, h0]; omega
  | ⟨1, _⟩ => show win0_3.index t 1 * 512 + 1 * (x 1).val = (k 1).val; rw [e1, h1]; omega

/-- The bias row's block at every point is the whole row. -/
theorem blk_bias (c : Dev nD) (t : Fin cfg0.N) (x k : S1x512.Idx)
    (h0 : (k 0).val = (x 0).val) (h1 : (k 1).val = (x 1).val) :
    (iblk0 V c 4 t : Vec Ideal S1x512 .f32) x = (V c main_v25 : S1x512.Idx → EReal) k := by
  obtain ⟨-, -, -, -, -, -, -, -, e0, e1, -⟩ := idx_facts t
  unfold iblk0
  rw [View.read_apply]
  show V c main_v25 _ = V c main_v25 _
  congr 1
  funext a
  apply Fin.ext
  match a with
  | ⟨0, _⟩ => show win0_4.index t 0 * 1 + 1 * (x 0).val = (k 0).val; rw [e0, h0]; omega
  | ⟨1, _⟩ => show win0_4.index t 1 * 512 + 1 * (x 1).val = (k 1).val; rw [e1, h1]; omega

/-- The stage of the five operand arrays as the region finds them. -/
def G (c : Dev nD) : S20000x512.Idx → EReal :=
  dual (V c main_v22 : S20000x256.Idx → EReal) (V c main_arg0 : S20000x256.Idx → EReal)
    (V c main_v23 : S256x512.Idx → EReal) (V c main_v24 : S256x512.Idx → EReal) (V c main_v25 : S1x512.Idx → EReal)

/-- What point t writes back is block t of the stage of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S1000x256) hz, View.ld_unit_zero (S := S256x512) hz, View.ld_unit_zero (S := S1x512) hz]
  rw [pay_eq]
  obtain ⟨e00, e01, e10, e11, e20, e21, e30, e31, e40, e41, e50, e51⟩ := idx_facts t
  funext j
  show dual (iblk0 V c 0 t : Vec Ideal S1000x256 .f32) (iblk0 V c 1 t : Vec Ideal S1000x256 .f32)
      (iblk0 V c 2 t : Vec Ideal S256x512 .f32) (iblk0 V c 3 t : Vec Ideal S256x512 .f32)
      (iblk0 V c 4 t : Vec Ideal S1x512 .f32) (j : S1000x512.Idx)
    = G V c (((cfg0.win 5).blk t).view.emb j)
  have hj0 : ((((cfg0.win 5).blk t).view.emb j) 0).val = 1000 * t.val + (j 0).val := by
    show win0_5.index t 0 * 1000 + 1 * (j 0).val = _
    rw [e50]; omega
  have hj1 : ((((cfg0.win 5).blk t).view.emb j) 1).val = (j 1).val := by
    show win0_5.index t 1 * 512 + 1 * (j 1).val = _
    rw [e51]; omega
  unfold G
  refine dual_apply_congr _ _ _ _ _ _ _ _ _ _ _ _ (fun jj => ?_) (fun jj => ?_) (fun jj => ?_) (fun jj => ?_) ?_
  · exact blk_a V c t _ _ hj0 rfl
  · exact blk_b V c t _ _ hj0 rfl
  · exact blk_wa V c t _ _ rfl hj1
  · exact blk_wb V c t _ _ rfl hj1
  · exact blk_bias V c t _ _ rfl hj1

/-- An index of the result array is in point t's block iff each coordinate is in the block's range on its axis. -/
theorem mem_blk (t : Fin cfg0.N) (i : S20000x512.Idx) :
    i ∈ ((cfg0.win 5).blk t).view.set ↔ ∀ a : Fin 2, win0_5.index t a * S1000x512.size a ≤ (i a).val
      ∧ (i a).val < win0_5.index t a * S1000x512.size a + S1000x512.size a := by
  show i ∈ ((View.whole main_v26).slice (win0_5.rect t)).set ↔ _
  rw [View.set_slice_whole, Rect.mem_set_unit]
  exact Iff.rfl

/-- The twenty blocks of 1000 rows tile the result, so it ends as the stage of the five operand arrays. -/
theorem final (c : Dev nD) : (dat0 V c).arrAt 5 cfg0.N = G V c :=
  (dat0 V c).arrAt_eq_of_cover 5 (G V c) (fun t _ => flushed_eq V c t) fun i => by
    have hi0 : (i 0).val < 20000 := (i 0).isLt
    have hi1 : (i 1).val < 512 := (i 1).isLt
    have hN : cfg0.N = 20 := N_0
    have hlt : (i 0).val / 1000 < cfg0.N := by rw [hN]; omega
    refine ⟨⟨(i 0).val / 1000, hlt⟩, flush0_5 _, ?_⟩
    rw [mem_blk]
    obtain ⟨-, -, -, -, -, -, -, -, -, -, e0, e1⟩ := idx_facts ⟨(i 0).val / 1000, hlt⟩
    intro a
    match a with
    | ⟨0, _⟩ =>
      show win0_5.index ⟨(i 0).val / 1000, hlt⟩ 0 * 1000 ≤ (i 0).val
        ∧ (i 0).val < win0_5.index ⟨(i 0).val / 1000, hlt⟩ 0 * 1000 + 1000
      rw [e0]; show (i 0).val / 1000 * 1000 ≤ (i 0).val ∧ (i 0).val < (i 0).val / 1000 * 1000 + 1000; omega
    | ⟨1, _⟩ =>
      show win0_5.index ⟨(i 0).val / 1000, hlt⟩ 1 * 512 ≤ (i 1).val
        ∧ (i 1).val < win0_5.index ⟨(i 0).val / 1000, hlt⟩ 1 * 512 + 512
      rw [e1]; omega

end Cert.KernelIdeal.Layer0

end
-- ==== Proof.Layer1.lean ====
/-
  The second dense layer's region, read as one matrix.

  As in the first layer's region: twenty points, point t taking rows 1000 t … 1000 t + 999 of the two [20000, 256] matrix
  operands with the whole of both weight matrices and of the bias row, and writing the same rows of the [20000, 512] result.
  The body's stage works one row at a time, so each block written is the same rows of the stage of the whole matrices, and
  the twenty blocks tile the result: the result array ends as that stage of the five operand arrays as the region finds them.
-/
import proofs.«101142_j61718680044159_1_alg».proof.Proof.Gen.KernelIdeal.Frame
import proofs.«101142_j61718680044159_1_alg».proof.Proof.LibDualLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.LibRowStages Cert.LibDualLayer

variable (V : (c : Dev nD) → (b : Ref sig .tc) → Buf (Elt Ideal) ((c : Thread nD τ).loc b))

theorem hz : (![0, 0] : Fin 2 → Nat) = fun _ => 0 := funext fun a => by fin_cases a <;> rfl

/-- On the extended reals the body's stored value is the stage of its five loaded blocks. -/
theorem pay_eq (v0 v3 : Vec Ideal S1000x256 .f32) (v5 v8 : Vec Ideal S256x512 .f32) (v14 : Vec Ideal S1x512 .f32) :
    k1_pay1 (F := Ideal) v0 v3 v5 v8 v14 = dual v0 v3 v5 v8 v14 := by
  unfold k1_pay1
  simp only [shapeCast_self]
  exact unit_dual dot_S1000x256_S256x512_S1000x512_1_0_0_1_n_n dot_S1000x256_S256x512_S1000x512_1_0_0_1_n_n
    rfl rfl rfl rfl rfl rfl rfl rfl rfl rfl rfl rfl broadcasts_S1x512_S1000x512 _ _ _ _ _

/-- The printed index maps over the grid: the two matrix operands and the result move with the point along the rows,
    the weights and the bias stay at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The first matrix operand's block at point t is rows 1000 t … 1000 t + 999 of its array. -/
theorem blk_a (c : Dev nD) (t : Fin cfg1.N) (x : S1000x256.Idx) (k : S20000x256.Idx)
    (h0 : (k 0).val = 1000 * t.val + (x 0).val) (h1 : (k 1).val = (x 1).val) :
    (iblk1 V c 0 t : Vec Ideal S1000x256 .f32) x = (V c main_v49 : S20000x256.Idx → EReal) k := by
  obtain ⟨e0, e1, -⟩ := idx_facts t
  unfold iblk1
  rw [View.read_apply]
  show V c main_v49 _ = V c main_v49 _
  congr 1
  funext a
  apply Fin.ext
  match a with
  | ⟨0, _⟩ => show win1_0.index t 0 * 1000 + 1 * (x 0).val = (k 0).val; rw [e0, h0]; omega
  | ⟨1, _⟩ => show win1_0.index t 1 * 256 + 1 * (x 1).val = (k 1).val; rw [e1, h1]; omega

/-- The second matrix operand's block at point t is rows 1000 t … 1000 t + 999 of its array. -/
theorem blk_b (c : Dev nD) (t : Fin cfg1.N) (x : S1000x256.Idx) (k : S20000x256.Idx)
    (h0 : (k 0).val = 1000 * t.val + (x 0).val) (h1 : (k 1).val = (x 1).val) :
    (iblk1 V c 1 t : Vec Ideal S1000x256 .f32) x = (V c main_arg1 : S20000x256.Idx → EReal) k := by
  obtain ⟨-, -, e0, e1, -⟩ := idx_facts t
  unfold iblk1
  rw [View.read_apply]
  show V c main_arg1 _ = V c main_arg1 _
  congr 1
  funext a
  apply Fin.ext
  match a with
  | ⟨0, _⟩ => show win1_1.index t 0 * 1000 + 1 * (x 0).val = (k 0).val; rw [e0, h0]; omega
  | ⟨1, _⟩ => show win1_1.index t 1 * 256 + 1 * (x 1).val = (k 1).val; rw [e1, h1]; omega

/-- The first weight matrix's block at every point is the whole matrix. -/
theorem blk_wa (c : Dev nD) (t : Fin cfg1.N) (x k : S256x512.Idx)
    (h0 : (k 0).val = (x 0).val) (h1 : (k 1).val = (x 1).val) :
    (iblk1 V c 2 t : Vec Ideal S256x512 .f32) x = (V c main_v50 : S256x512.Idx → EReal) k := by
  obtain ⟨-, -, -, -, e0, e1, -⟩ := idx_facts t
  unfold iblk1
  rw [View.read_apply]
  show V c main_v50 _ = V c main_v50 _
  congr 1
  funext a
  apply Fin.ext
  match a with
  | ⟨0, _⟩ => show win1_2.index t 0 * 256 + 1 * (x 0).val = (k 0).val; rw [e0, h0]; omega
  | ⟨1, _⟩ => show win1_2.index t 1 * 512 + 1 * (x 1).val = (k 1).val; rw [e1, h1]; omega

/-- The second weight matrix's block at every point is the whole matrix. -/
theorem blk_wb (c : Dev nD) (t : Fin cfg1.N) (x k : S256x512.Idx)
    (h0 : (k 0).val = (x 0).val) (h1 : (k 1).val = (x 1).val) :
    (iblk1 V c 3 t : Vec Ideal S256x512 .f32) x = (V c main_v51 : S256x512.Idx → EReal) k := by
  obtain ⟨-, -, -, -, -, -, e0, e1, -⟩ := idx_facts t
  unfold iblk1
  rw [View.read_apply]
  show V c main_v51 _ = V c main_v51 _
  congr 1
  funext a
  apply Fin.ext
  match a with
  | ⟨0, _⟩ => show win1_3.index t 0 * 256 + 1 * (x 0).val = (k 0).val; rw [e0, h0]; omega
  | ⟨1, _⟩ => show win1_3.index t 1 * 512 + 1 * (x 1).val = (k 1).val; rw [e1, h1]; omega

/-- The bias row's block at every point is the whole row. -/
theorem blk_bias (c : Dev nD) (t : Fin cfg1.N) (x k : S1x512.Idx)
    (h0 : (k 0).val = (x 0).val) (h1 : (k 1).val = (x 1).val) :
    (iblk1 V c 4 t : Vec Ideal S1x512 .f32) x = (V c main_v52 : S1x512.Idx → EReal) k := by
  obtain ⟨-, -, -, -, -, -, -, -, e0, e1, -⟩ := idx_facts t
  unfold iblk1
  rw [View.read_apply]
  show V c main_v52 _ = V c main_v52 _
  congr 1
  funext a
  apply Fin.ext
  match a with
  | ⟨0, _⟩ => show win1_4.index t 0 * 1 + 1 * (x 0).val = (k 0).val; rw [e0, h0]; omega
  | ⟨1, _⟩ => show win1_4.index t 1 * 512 + 1 * (x 1).val = (k 1).val; rw [e1, h1]; omega

/-- The stage of the five operand arrays as the region finds them. -/
def G (c : Dev nD) : S20000x512.Idx → EReal :=
  dual (V c main_v49 : S20000x256.Idx → EReal) (V c main_arg1 : S20000x256.Idx → EReal)
    (V c main_v50 : S256x512.Idx → EReal) (V c main_v51 : S256x512.Idx → EReal) (V c main_v52 : S1x512.Idx → EReal)

/-- What point t writes back is block t of the stage of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S1000x256) hz, View.ld_unit_zero (S := S256x512) hz, View.ld_unit_zero (S := S1x512) hz]
  rw [pay_eq]
  obtain ⟨e00, e01, e10, e11, e20, e21, e30, e31, e40, e41, e50, e51⟩ := idx_facts t
  funext j
  show dual (iblk1 V c 0 t : Vec Ideal S1000x256 .f32) (iblk1 V c 1 t : Vec Ideal S1000x256 .f32)
      (iblk1 V c 2 t : Vec Ideal S256x512 .f32) (iblk1 V c 3 t : Vec Ideal S256x512 .f32)
      (iblk1 V c 4 t : Vec Ideal S1x512 .f32) (j : S1000x512.Idx)
    = G V c (((cfg1.win 5).blk t).view.emb j)
  have hj0 : ((((cfg1.win 5).blk t).view.emb j) 0).val = 1000 * t.val + (j 0).val := by
    show win1_5.index t 0 * 1000 + 1 * (j 0).val = _
    rw [e50]; omega
  have hj1 : ((((cfg1.win 5).blk t).view.emb j) 1).val = (j 1).val := by
    show win1_5.index t 1 * 512 + 1 * (j 1).val = _
    rw [e51]; omega
  unfold G
  refine dual_apply_congr _ _ _ _ _ _ _ _ _ _ _ _ (fun jj => ?_) (fun jj => ?_) (fun jj => ?_) (fun jj => ?_) ?_
  · exact blk_a V c t _ _ hj0 rfl
  · exact blk_b V c t _ _ hj0 rfl
  · exact blk_wa V c t _ _ rfl hj1
  · exact blk_wb V c t _ _ rfl hj1
  · exact blk_bias V c t _ _ rfl hj1

/-- An index of the result array is in point t's block iff each coordinate is in the block's range on its axis. -/
theorem mem_blk (t : Fin cfg1.N) (i : S20000x512.Idx) :
    i ∈ ((cfg1.win 5).blk t).view.set ↔ ∀ a : Fin 2, win1_5.index t a * S1000x512.size a ≤ (i a).val
      ∧ (i a).val < win1_5.index t a * S1000x512.size a + S1000x512.size a := by
  show i ∈ ((View.whole main_v53).slice (win1_5.rect t)).set ↔ _
  rw [View.set_slice_whole, Rect.mem_set_unit]
  exact Iff.rfl

/-- The twenty blocks of 1000 rows tile the result, so it ends as the stage of the five operand arrays. -/
theorem final (c : Dev nD) : (dat1 V c).arrAt 5 cfg1.N = G V c :=
  (dat1 V c).arrAt_eq_of_cover 5 (G V c) (fun t _ => flushed_eq V c t) fun i => by
    have hi0 : (i 0).val < 20000 := (i 0).isLt
    have hi1 : (i 1).val < 512 := (i 1).isLt
    have hN : cfg1.N = 20 := N_1
    have hlt : (i 0).val / 1000 < cfg1.N := by rw [hN]; omega
    refine ⟨⟨(i 0).val / 1000, hlt⟩, flush1_5 _, ?_⟩
    rw [mem_blk]
    obtain ⟨-, -, -, -, -, -, -, -, -, -, e0, e1⟩ := idx_facts ⟨(i 0).val / 1000, hlt⟩
    intro a
    match a with
    | ⟨0, _⟩ =>
      show win1_5.index ⟨(i 0).val / 1000, hlt⟩ 0 * 1000 ≤ (i 0).val
        ∧ (i 0).val < win1_5.index ⟨(i 0).val / 1000, hlt⟩ 0 * 1000 + 1000
      rw [e0]; show (i 0).val / 1000 * 1000 ≤ (i 0).val ∧ (i 0).val < (i 0).val / 1000 * 1000 + 1000; omega
    | ⟨1, _⟩ =>
      show win1_5.index ⟨(i 0).val / 1000, hlt⟩ 1 * 512 ≤ (i 1).val
        ∧ (i 1).val < win1_5.index ⟨(i 0).val / 1000, hlt⟩ 1 * 512 + 512
      rw [e1]; omega

end Cert.KernelIdeal.Layer1

end
-- ==== Proof.Layer2.lean ====
/-
  The third dense layer's region, read as one matrix.

  Twenty points, point t taking rows 1000 t … 1000 t + 999 of the two [20000, 512] matrix operands with the whole of both
  [512, 512] weight matrices and of the bias row, and writing the same rows of the [20000, 512] result.  The body's stage
  works one row at a time, so each block written is the same rows of the stage of the whole matrices, and the twenty blocks
  tile the result: the result array ends as that stage of the five operand arrays as the region finds them.
-/
import proofs.«101142_j61718680044159_1_alg».proof.Proof.Gen.KernelIdeal.Frame
import proofs.«101142_j61718680044159_1_alg».proof.Proof.LibDualLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.LibRowStages Cert.LibDualLayer

variable (V : (c : Dev nD) → (b : Ref sig .tc) → Buf (Elt Ideal) ((c : Thread nD τ).loc b))

theorem hz : (![0, 0] : Fin 2 → Nat) = fun _ => 0 := funext fun a => by fin_cases a <;> rfl

/-- On the extended reals the body's stored value is the stage of its five loaded blocks. -/
theorem pay_eq (v0 v3 : Vec Ideal S1000x512 .f32) (v5 v8 : Vec Ideal S512x512 .f32) (v14 : Vec Ideal S1x512 .f32) :
    k2_pay1 (F := Ideal) v0 v3 v5 v8 v14 = dual v0 v3 v5 v8 v14 := by
  unfold k2_pay1
  simp only [shapeCast_self]
  exact unit_dual dot_S1000x512_S512x512_S1000x512_1_0_0_1_n_n dot_S1000x512_S512x512_S1000x512_1_0_0_1_n_n
    rfl rfl rfl rfl rfl rfl rfl rfl rfl rfl rfl rfl broadcasts_S1x512_S1000x512 _ _ _ _ _

/-- The printed index maps over the grid: the two matrix operands and the result move with the point along the rows,
    the weights and the bias stay at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The first matrix operand's block at point t is rows 1000 t … 1000 t + 999 of its array. -/
theorem blk_a (c : Dev nD) (t : Fin cfg2.N) (x : S1000x512.Idx) (k : S20000x512.Idx)
    (h0 : (k 0).val = 1000 * t.val + (x 0).val) (h1 : (k 1).val = (x 1).val) :
    (iblk2 V c 0 t : Vec Ideal S1000x512 .f32) x = (V c main_v76 : S20000x512.Idx → EReal) k := by
  obtain ⟨e0, e1, -⟩ := idx_facts t
  unfold iblk2
  rw [View.read_apply]
  show V c main_v76 _ = V c main_v76 _
  congr 1
  funext a
  apply Fin.ext
  match a with
  | ⟨0, _⟩ => show win2_0.index t 0 * 1000 + 1 * (x 0).val = (k 0).val; rw [e0, h0]; omega
  | ⟨1, _⟩ => show win2_0.index t 1 * 512 + 1 * (x 1).val = (k 1).val; rw [e1, h1]; omega

/-- The second matrix operand's block at point t is rows 1000 t … 1000 t + 999 of its array. -/
theorem blk_b (c : Dev nD) (t : Fin cfg2.N) (x : S1000x512.Idx) (k : S20000x512.Idx)
    (h0 : (k 0).val = 1000 * t.val + (x 0).val) (h1 : (k 1).val = (x 1).val) :
    (iblk2 V c 1 t : Vec Ideal S1000x512 .f32) x = (V c main_v53 : S20000x512.Idx → EReal) k := by
  obtain ⟨-, -, e0, e1, -⟩ := idx_facts t
  unfold iblk2
  rw [View.read_apply]
  show V c main_v53 _ = V c main_v53 _
  congr 1
  funext a
  apply Fin.ext
  match a with
  | ⟨0, _⟩ => show win2_1.index t 0 * 1000 + 1 * (x 0).val = (k 0).val; rw [e0, h0]; omega
  | ⟨1, _⟩ => show win2_1.index t 1 * 512 + 1 * (x 1).val = (k 1).val; rw [e1, h1]; omega

/-- The first weight matrix's block at every point is the whole matrix. -/
theorem blk_wa (c : Dev nD) (t : Fin cfg2.N) (x k : S512x512.Idx)
    (h0 : (k 0).val = (x 0).val) (h1 : (k 1).val = (x 1).val) :
    (iblk2 V c 2 t : Vec Ideal S512x512 .f32) x = (V c main_v77 : S512x512.Idx → EReal) k := by
  obtain ⟨-, -, -, -, e0, e1, -⟩ := idx_facts t
  unfold iblk2
  rw [View.read_apply]
  show V c main_v77 _ = V c main_v77 _
  congr 1
  funext a
  apply Fin.ext
  match a with
  | ⟨0, _⟩ => show win2_2.index t 0 * 512 + 1 * (x 0).val = (k 0).val; rw [e0, h0]; omega
  | ⟨1, _⟩ => show win2_2.index t 1 * 512 + 1 * (x 1).val = (k 1).val; rw [e1, h1]; omega

/-- The second weight matrix's block at every point is the whole matrix. -/
theorem blk_wb (c : Dev nD) (t : Fin cfg2.N) (x k : S512x512.Idx)
    (h0 : (k 0).val = (x 0).val) (h1 : (k 1).val = (x 1).val) :
    (iblk2 V c 3 t : Vec Ideal S512x512 .f32) x = (V c main_v78 : S512x512.Idx → EReal) k := by
  obtain ⟨-, -, -, -, -, -, e0, e1, -⟩ := idx_facts t
  unfold iblk2
  rw [View.read_apply]
  show V c main_v78 _ = V c main_v78 _
  congr 1
  funext a
  apply Fin.ext
  match a with
  | ⟨0, _⟩ => show win2_3.index t 0 * 512 + 1 * (x 0).val = (k 0).val; rw [e0, h0]; omega
  | ⟨1, _⟩ => show win2_3.index t 1 * 512 + 1 * (x 1).val = (k 1).val; rw [e1, h1]; omega

/-- The bias row's block at every point is the whole row. -/
theorem blk_bias (c : Dev nD) (t : Fin cfg2.N) (x k : S1x512.Idx)
    (h0 : (k 0).val = (x 0).val) (h1 : (k 1).val = (x 1).val) :
    (iblk2 V c 4 t : Vec Ideal S1x512 .f32) x = (V c main_v79 : S1x512.Idx → EReal) k := by
  obtain ⟨-, -, -, -, -, -, -, -, e0, e1, -⟩ := idx_facts t
  unfold iblk2
  rw [View.read_apply]
  show V c main_v79 _ = V c main_v79 _
  congr 1
  funext a
  apply Fin.ext
  match a with
  | ⟨0, _⟩ => show win2_4.index t 0 * 1 + 1 * (x 0).val = (k 0).val; rw [e0, h0]; omega
  | ⟨1, _⟩ => show win2_4.index t 1 * 512 + 1 * (x 1).val = (k 1).val; rw [e1, h1]; omega

/-- The stage of the five operand arrays as the region finds them. -/
def G (c : Dev nD) : S20000x512.Idx → EReal :=
  dual (V c main_v76 : S20000x512.Idx → EReal) (V c main_v53 : S20000x512.Idx → EReal)
    (V c main_v77 : S512x512.Idx → EReal) (V c main_v78 : S512x512.Idx → EReal) (V c main_v79 : S1x512.Idx → EReal)

/-- What point t writes back is block t of the stage of the whole arrays. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S1000x512) hz, View.ld_unit_zero (S := S512x512) hz, View.ld_unit_zero (S := S1x512) hz]
  rw [pay_eq]
  obtain ⟨e00, e01, e10, e11, e20, e21, e30, e31, e40, e41, e50, e51⟩ := idx_facts t
  funext j
  show dual (iblk2 V c 0 t : Vec Ideal S1000x512 .f32) (iblk2 V c 1 t : Vec Ideal S1000x512 .f32)
      (iblk2 V c 2 t : Vec Ideal S512x512 .f32) (iblk2 V c 3 t : Vec Ideal S512x512 .f32)
      (iblk2 V c 4 t : Vec Ideal S1x512 .f32) (j : S1000x512.Idx)
    = G V c (((cfg2.win 5).blk t).view.emb j)
  have hj0 : ((((cfg2.win 5).blk t).view.emb j) 0).val = 1000 * t.val + (j 0).val := by
    show win2_5.index t 0 * 1000 + 1 * (j 0).val = _
    rw [e50]; omega
  have hj1 : ((((cfg2.win 5).blk t).view.emb j) 1).val = (j 1).val := by
    show win2_5.index t 1 * 512 + 1 * (j 1).val = _
    rw [e51]; omega
  unfold G
  refine dual_apply_congr _ _ _ _ _ _ _ _ _ _ _ _ (fun jj => ?_) (fun jj => ?_) (fun jj => ?_) (fun jj => ?_) ?_
  · exact blk_a V c t _ _ hj0 rfl
  · exact blk_b V c t _ _ hj0 rfl
  · exact blk_wa V c t _ _ rfl hj1
  · exact blk_wb V c t _ _ rfl hj1
  · exact blk_bias V c t _ _ rfl hj1

/-- An index of the result array is in point t's block iff each coordinate is in the block's range on its axis. -/
theorem mem_blk (t : Fin cfg2.N) (i : S20000x512.Idx) :
    i ∈ ((cfg2.win 5).blk t).view.set ↔ ∀ a : Fin 2, win2_5.index t a * S1000x512.size a ≤ (i a).val
      ∧ (i a).val < win2_5.index t a * S1000x512.size a + S1000x512.size a := by
  show i ∈ ((View.whole main_v80).slice (win2_5.rect t)).set ↔ _
  rw [View.set_slice_whole, Rect.mem_set_unit]
  exact Iff.rfl

/-- The twenty blocks of 1000 rows tile the result, so it ends as the stage of the five operand arrays. -/
theorem final (c : Dev nD) : (dat2 V c).arrAt 5 cfg2.N = G V c :=
  (dat2 V c).arrAt_eq_of_cover 5 (G V c) (fun t _ => flushed_eq V c t) fun i => by
    have hi0 : (i 0).val < 20000 := (i 0).isLt
    have hi1 : (i 1).val < 512 := (i 1).isLt
    have hN : cfg2.N = 20 := N_2
    have hlt : (i 0).val / 1000 < cfg2.N := by rw [hN]; omega
    refine ⟨⟨(i 0).val / 1000, hlt⟩, flush2_5 _, ?_⟩
    rw [mem_blk]
    obtain ⟨-, -, -, -, -, -, -, -, -, -, e0, e1⟩ := idx_facts ⟨(i 0).val / 1000, hlt⟩
    intro a
    match a with
    | ⟨0, _⟩ =>
      show win2_5.index ⟨(i 0).val / 1000, hlt⟩ 0 * 1000 ≤ (i 0).val
        ∧ (i 0).val < win2_5.index ⟨(i 0).val / 1000, hlt⟩ 0 * 1000 + 1000
      rw [e0]; show (i 0).val / 1000 * 1000 ≤ (i 0).val ∧ (i 0).val < (i 0).val / 1000 * 1000 + 1000; omega
    | ⟨1, _⟩ =>
      show win2_5.index ⟨(i 0).val / 1000, hlt⟩ 1 * 512 ≤ (i 1).val
        ∧ (i 1).val < win2_5.index ⟨(i 0).val / 1000, hlt⟩ 1 * 512 + 512
      rw [e1]; omega

end Cert.KernelIdeal.Layer2

end
-- ==== Proof.Layer3.lean ====
/-
  The final linear layer's region, read as one matrix.

  Twenty points, point t taking rows 1000 t … 1000 t + 999 of the [20000, 512] matrix operand with the whole [512, 256]
  weight matrix and the whole one-row bias, and writing the same rows of the [20000, 256] result.  On the extended reals the
  body computes the product with the bias row added, one row at a time, so each block written is the same rows of that
  stage of the whole matrix, and the twenty blocks tile the result: the result array ends as the stage of the three operand
  arrays as the region finds them.
-/
import proofs.«101142_j61718680044159_1_alg».proof.Proof.Gen.KernelIdeal.Frame
import proofs.«101142_j61718680044159_1_alg».proof.Proof.LibDualLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer3

open Cert.KernelIdeal Cert.KernelIdeal.Gen Cert.LibRowStages Cert.LibDualLayer

variable (V : (c : Dev nD) → (b : Ref sig .tc) → Buf (Elt Ideal) ((c : Thread nD τ).loc b))

theorem hz : (![0, 0] : Fin 2 → Nat) = fun _ => 0 := funext fun a => by fin_cases a <;> rfl

/-- On the extended reals the body's stored value is the stage of its three loaded blocks. -/
theorem pay_eq (v0 : Vec Ideal S1000x512 .f32) (v3 : Vec Ideal S512x256 .f32) (v7 : Vec Ideal S1x256 .f32) :
    k3_pay1 (F := Ideal) v0 v3 v7 = lin v0 v3 v7 := by
  unfold k3_pay1
  simp only [shapeCast_self]
  exact unit_lin dot_S1000x512_S512x256_S1000x256_1_0_0_1_n_n rfl rfl rfl rfl rfl rfl broadcasts_S1x256_S1000x256 _ _ _

/-- The printed index maps over the grid: the matrix operand and the result move with the point along the rows, the
    weights and the bias stay at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The matrix operand's block at point t is rows 1000 t … 1000 t + 999 of its array. -/
theorem blk_a (c : Dev nD) (t : Fin cfg3.N) (x : S1000x512.Idx) (k : S20000x512.Idx)
    (h0 : (k 0).val = 1000 * t.val + (x 0).val) (h1 : (k 1).val = (x 1).val) :
    (iblk3 V c 0 t : Vec Ideal S1000x512 .f32) x = (V c main_v80 : S20000x512.Idx → EReal) k := by
  obtain ⟨e0, e1, -⟩ := idx_facts t
  unfold iblk3
  rw [View.read_apply]
  show V c main_v80 _ = V c main_v80 _
  congr 1
  funext a
  apply Fin.ext
  match a with
  | ⟨0, _⟩ => show win3_0.index t 0 * 1000 + 1 * (x 0).val = (k 0).val; rw [e0, h0]; omega
  | ⟨1, _⟩ => show win3_0.index t 1 * 512 + 1 * (x 1).val = (k 1).val; rw [e1, h1]; omega

/-- The weight matrix's block at every point is the whole matrix. -/
theorem blk_w (c : Dev nD) (t : Fin cfg3.N) (x k : S512x256.Idx)
    (h0 : (k 0).val = (x 0).val) (h1 : (k 1).val = (x 1).val) :
    (iblk3 V c 1 t : Vec Ideal S512x256 .f32) x = (V c main_v81 : S512x256.Idx → EReal) k := by
  obtain ⟨-, -, e0, e1, -⟩ := idx_facts t
  unfold iblk3
  rw [View.read_apply]
  show V c main_v81 _ = V c main_v81 _
  congr 1
  funext a
  apply Fin.ext
  match a with
  | ⟨0, _⟩ => show win3_1.index t 0 * 512 + 1 * (x 0).val = (k 0).val; rw [e0, h0]; omega
  | ⟨1, _⟩ => show win3_1.index t 1 * 256 + 1 * (x 1).val = (k 1).val; rw [e1, h1]; omega

/-- The bias row's block at every point is the whole row. -/
theorem blk_bias (c : Dev nD) (t : Fin cfg3.N) (x k : S1x256.Idx)
    (h0 : (k 0).val = (x 0).val) (h1 : (k 1).val = (x 1).val) :
    (iblk3 V c 2 t : Vec Ideal S1x256 .f32) x = (V c main_v82 : S1x256.Idx → EReal) k := by
  obtain ⟨-, -, -, -, e0, e1, -⟩ := idx_facts t
  unfold iblk3
  rw [View.read_apply]
  show V c main_v82 _ = V c main_v82 _
  congr 1
  funext a
  apply Fin.ext
  match a with
  | ⟨0, _⟩ => show win3_2.index t 0 * 1 + 1 * (x 0).val = (k 0).val; rw [e0, h0]; omega
  | ⟨1, _⟩ => show win3_2.index t 1 * 256 + 1 * (x 1).val = (k 1).val; rw [e1, h1]; omega

/-- The stage of the three operand arrays as the region finds them. -/
def G (c : Dev nD) : S20000x256.Idx → EReal :=
  lin (V c main_v80 : S20000x512.Idx → EReal) (V c main_v81 : S512x256.Idx → EReal) (V c main_v82 : S1x256.Idx → EReal)

/-- What point t writes back is block t of the stage of the whole arrays. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S1000x512) hz, View.ld_unit_zero (S := S512x256) hz, View.ld_unit_zero (S := S1x256) hz]
  rw [pay_eq]
  obtain ⟨e00, e01, e10, e11, e20, e21, e30, e31⟩ := idx_facts t
  funext j
  show lin (iblk3 V c 0 t : Vec Ideal S1000x512 .f32) (iblk3 V c 1 t : Vec Ideal S512x256 .f32)
      (iblk3 V c 2 t : Vec Ideal S1x256 .f32) (j : S1000x256.Idx)
    = G V c (((cfg3.win 3).blk t).view.emb j)
  have hj0 : ((((cfg3.win 3).blk t).view.emb j) 0).val = 1000 * t.val + (j 0).val := by
    show win3_3.index t 0 * 1000 + 1 * (j 0).val = _
    rw [e30]; omega
  have hj1 : ((((cfg3.win 3).blk t).view.emb j) 1).val = (j 1).val := by
    show win3_3.index t 1 * 256 + 1 * (j 1).val = _
    rw [e31]; omega
  unfold G
  refine lin_apply_congr _ _ _ _ _ _ _ _ (fun jj => ?_) (fun jj => ?_) ?_
  · exact blk_a V c t _ _ hj0 rfl
  · exact blk_w V c t _ _ rfl hj1
  · exact blk_bias V c t _ _ rfl hj1

/-- An index of the result array is in point t's block iff each coordinate is in the block's range on its axis. -/
theorem mem_blk (t : Fin cfg3.N) (i : S20000x256.Idx) :
    i ∈ ((cfg3.win 3).blk t).view.set ↔ ∀ a : Fin 2, win3_3.index t a * S1000x256.size a ≤ (i a).val
      ∧ (i a).val < win3_3.index t a * S1000x256.size a + S1000x256.size a := by
  show i ∈ ((View.whole main_v83).slice (win3_3.rect t)).set ↔ _
  rw [View.set_slice_whole, Rect.mem_set_unit]
  exact Iff.rfl

/-- The twenty blocks of 1000 rows tile the result, so it ends as the stage of the three operand arrays. -/
theorem final (c : Dev nD) : (dat3 V c).arrAt 3 cfg3.N = G V c :=
  (dat3 V c).arrAt_eq_of_cover 3 (G V c) (fun t _ => flushed_eq V c t) fun i => by
    have hi0 : (i 0).val < 20000 := (i 0).isLt
    have hi1 : (i 1).val < 256 := (i 1).isLt
    have hN : cfg3.N = 20 := N_3
    have hlt : (i 0).val / 1000 < cfg3.N := by rw [hN]; omega
    refine ⟨⟨(i 0).val / 1000, hlt⟩, flush3_3 _, ?_⟩
    rw [mem_blk]
    obtain ⟨-, -, -, -, -, -, e0, e1⟩ := idx_facts ⟨(i 0).val / 1000, hlt⟩
    intro a
    match a with
    | ⟨0, _⟩ =>
      show win3_3.index ⟨(i 0).val / 1000, hlt⟩ 0 * 1000 ≤ (i 0).val
        ∧ (i 0).val < win3_3.index ⟨(i 0).val / 1000, hlt⟩ 0 * 1000 + 1000
      rw [e0]; show (i 0).val / 1000 * 1000 ≤ (i 0).val ∧ (i 0).val < (i 0).val / 1000 * 1000 + 1000; omega
    | ⟨1, _⟩ =>
      show win3_3.index ⟨(i 0).val / 1000, hlt⟩ 1 * 256 ≤ (i 1).val
        ∧ (i 1).val < win3_3.index ⟨(i 0).val / 1000, hlt⟩ 1 * 256 + 256
      rw [e1]; omega

end Cert.KernelIdeal.Layer3

end
-- ==== Proof.Glue.lean ====
/-
  The host operations around the kernel's four regions, read as values.

  Before each of the first three regions @main computes a mean over incoming edges: for every destination row, the rows of
  a source matrix gathered at the edges' source indices are summed into the edges' destination rows, and each row sum is
  divided by the larger of the number of edges arriving there and one.  That chain of operations is kept as one function of
  the source matrix and the edge array and is never opened; the reference program applies the same chain.  The other host
  operations transpose a weight matrix and reshape a bias vector to one row.  Each region's operand arrays at its entry are
  read here as these values of the launch arguments and of the earlier regions' results.
-/
import proofs.«101142_j61718680044159_1_alg».proof.Proof.Gen.KernelIdeal.Frame
import Idealize.ShloMosaic.Lib.StableHlo.Run
import Idealize.ShloMosaic.PureOps.Ideal
import proofs.«101142_j61718680044159_1_alg».proof.Proof.LibDualLayer
import proofs.«101142_j61718680044159_1_alg».proof.Proof.Spec
import proofs.«101142_j61718680044159_1_alg».proof.Proof.Layer0
import proofs.«101142_j61718680044159_1_alg».proof.Proof.Layer1
import proofs.«101142_j61718680044159_1_alg».proof.Proof.Layer2
import proofs.«101142_j61718680044159_1_alg».proof.Proof.Layer3

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo
open Cert.LibRowStages Cert.LibDualLayer Cert.KernelIdeal.Spec

variable (m : (ℓ : Loc nD τ sig) → Buf (Elt Ideal) ℓ) (ρ : Dev nD → PrngReg)

/-! ## The first region: its operands at entry, its result -/

set_option maxHeartbeats 4000000 in
theorem entry0_a (c : Dev nD) : V1 m ρ c main_v22 = segMean256 (m ((c : Thread nD τ).loc main_arg0)) (m ((c : Thread nD τ).loc main_arg2)) := by
  show StableHlo.after hostOps0 (W0 m ρ c) (Proc.devRef .tc main_v22) = _
  after_results_simp <;> rfl

theorem entry0_b (c : Dev nD) : V1 m ρ c main_arg0 = m ((c : Thread nD τ).loc main_arg0) := by
  show StableHlo.after hostOps0 (W0 m ρ c) (Proc.devRef .tc main_arg0) = _
  after_results <;> rfl

theorem entry0_wa (c : Dev nD) : V1 m ρ c main_v23 = (transpose S256x512 [1, 0] (m ((c : Thread nD τ).loc main_arg4)) transposes_S512x256_S256x512_1_0) := by
  show StableHlo.after hostOps0 (W0 m ρ c) (Proc.devRef .tc main_v23) = _
  after_results <;> rfl

theorem entry0_wb (c : Dev nD) : V1 m ρ c main_v24 = (transpose S256x512 [1, 0] (m ((c : Thread nD τ).loc main_arg6)) transposes_S512x256_S256x512_1_0) := by
  show StableHlo.after hostOps0 (W0 m ρ c) (Proc.devRef .tc main_v24) = _
  after_results <;> rfl

theorem entry0_bias (c : Dev nD) : V1 m ρ c main_v25 = (shapeCast S1x512 (m ((c : Thread nD τ).loc main_arg5)) shapeCasts_S512_S1x512) := by
  show StableHlo.after hostOps0 (W0 m ρ c) (Proc.devRef .tc main_v25) = _
  after_results <;> rfl

/-- The first region leaves the first convolution in its result array. -/
theorem out0 (c : Dev nD) : W2 m ρ c (Proc.devRef .tc main_v26) = conv256 (m ((c : Thread nD τ).loc main_arg0)) (m ((c : Thread nD τ).loc main_arg0)) (m ((c : Thread nD τ).loc main_arg2)) (m ((c : Thread nD τ).loc main_arg4)) (m ((c : Thread nD τ).loc main_arg6)) (m ((c : Thread nD τ).loc main_arg5)) :=
  (W2_arr m ρ c 5).trans ((Cert.KernelIdeal.Layer0.final (V1 m ρ) c).trans (by
    unfold Cert.KernelIdeal.Layer0.G
    rw [entry0_a, entry0_b, entry0_wa, entry0_wb, entry0_bias]
    rfl))

/-! ## The argument arrays at the later boundaries: no host operation and no region writes one -/

theorem W1_arg1 (c : Dev nD) : W1 m ρ c (Proc.devRef .tc main_arg1) = m ((c : Thread nD τ).loc main_arg1) := by
  show StableHlo.after hostOps0 (W0 m ρ c) (Proc.devRef .tc main_arg1) = _
  after_results <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results <;> rfl
theorem W1_arg9 (c : Dev nD) : W1 m ρ c (Proc.devRef .tc main_arg9) = m ((c : Thread nD τ).loc main_arg9) := by
  show StableHlo.after hostOps0 (W0 m ρ c) (Proc.devRef .tc main_arg9) = _
  after_results <;> rfl
theorem W1_arg10 (c : Dev nD) : W1 m ρ c (Proc.devRef .tc main_arg10) = m ((c : Thread nD τ).loc main_arg10) := by
  show StableHlo.after hostOps0 (W0 m ρ c) (Proc.devRef .tc main_arg10) = _
  after_results <;> rfl
theorem W1_arg11 (c : Dev nD) : W1 m ρ c (Proc.devRef .tc main_arg11) = m ((c : Thread nD τ).loc main_arg11) := by
  show StableHlo.after hostOps0 (W0 m ρ c) (Proc.devRef .tc main_arg11) = _
  after_results <;> rfl
theorem W1_arg12 (c : Dev nD) : W1 m ρ c (Proc.devRef .tc main_arg12) = m ((c : Thread nD τ).loc main_arg12) := by
  show StableHlo.after hostOps0 (W0 m ρ c) (Proc.devRef .tc main_arg12) = _
  after_results <;> rfl
theorem W1_arg13 (c : Dev nD) : W1 m ρ c (Proc.devRef .tc main_arg13) = m ((c : Thread nD τ).loc main_arg13) := by
  show StableHlo.after hostOps0 (W0 m ρ c) (Proc.devRef .tc main_arg13) = _
  after_results <;> rfl
theorem W1_arg14 (c : Dev nD) : W1 m ρ c (Proc.devRef .tc main_arg14) = m ((c : Thread nD τ).loc main_arg14) := by
  show StableHlo.after hostOps0 (W0 m ρ c) (Proc.devRef .tc main_arg14) = _
  after_results <;> rfl
theorem W2_arg0 (c : Dev nD) : W2 m ρ c (Proc.devRef .tc main_arg0) = m ((c : Thread nD τ).loc main_arg0) :=
  (W2_arr m ρ c 1).trans (((dat0 (V1 m ρ) c).arrAt_in 1 rfl _).trans ((A_eq0 (V1 m ρ) c 1).trans (entry0_b m ρ c)))
theorem W2_arg1 (c : Dev nD) : W2 m ρ c (Proc.devRef .tc main_arg1) = m ((c : Thread nD τ).loc main_arg1) :=
  (W2_of_ne m ρ c main_arg1 (by decide)).trans (W1_arg1 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W2_arg13 (c : Dev nD) : W2 m ρ c (Proc.devRef .tc main_arg13) = m ((c : Thread nD τ).loc main_arg13) :=
  (W2_of_ne m ρ c main_arg13 (by decide)).trans (W1_arg13 m ρ c)
theorem W2_arg14 (c : Dev nD) : W2 m ρ c (Proc.devRef .tc main_arg14) = m ((c : Thread nD τ).loc main_arg14) :=
  (W2_of_ne m ρ c main_arg14 (by decide)).trans (W1_arg14 m ρ c)
theorem W3_arg3 (c : Dev nD) : W3 m ρ c (Proc.devRef .tc main_arg3) = m ((c : Thread nD τ).loc main_arg3) := by
  refine Eq.trans ?_ (W2_arg3 m ρ c)
  show StableHlo.after hostOps1 (W2 m ρ c) (Proc.devRef .tc main_arg3) = W2 m ρ c (Proc.devRef .tc main_arg3)
  after_results <;> rfl
theorem W4_arg3 (c : Dev nD) : W4 m ρ c (Proc.devRef .tc main_arg3) = m ((c : Thread nD τ).loc main_arg3) :=
  (W4_of_ne m ρ c main_arg3 (by decide)).trans (W3_arg3 m ρ c)
theorem W3_arg10 (c : Dev nD) : W3 m ρ c (Proc.devRef .tc main_arg10) = m ((c : Thread nD τ).loc main_arg10) := by
  refine Eq.trans ?_ (W2_arg10 m ρ c)
  show StableHlo.after hostOps1 (W2 m ρ c) (Proc.devRef .tc main_arg10) = W2 m ρ c (Proc.devRef .tc main_arg10)
  after_results <;> rfl
theorem W4_arg10 (c : Dev nD) : W4 m ρ c (Proc.devRef .tc main_arg10) = m ((c : Thread nD τ).loc main_arg10) :=
  (W4_of_ne m ρ c main_arg10 (by decide)).trans (W3_arg10 m ρ c)
theorem W3_arg11 (c : Dev nD) : W3 m ρ c (Proc.devRef .tc main_arg11) = m ((c : Thread nD τ).loc main_arg11) := by
  refine Eq.trans ?_ (W2_arg11 m ρ c)
  show StableHlo.after hostOps1 (W2 m ρ c) (Proc.devRef .tc main_arg11) = W2 m ρ c (Proc.devRef .tc main_arg11)
  after_results <;> rfl
theorem W4_arg11 (c : Dev nD) : W4 m ρ c (Proc.devRef .tc main_arg11) = m ((c : Thread nD τ).loc main_arg11) :=
  (W4_of_ne m ρ c main_arg11 (by decide)).trans (W3_arg11 m ρ c)
theorem W3_arg12 (c : Dev nD) : W3 m ρ c (Proc.devRef .tc main_arg12) = m ((c : Thread nD τ).loc main_arg12) := by
  refine Eq.trans ?_ (W2_arg12 m ρ c)
  show StableHlo.after hostOps1 (W2 m ρ c) (Proc.devRef .tc main_arg12) = W2 m ρ c (Proc.devRef .tc main_arg12)
  after_results <;> rfl
theorem W4_arg12 (c : Dev nD) : W4 m ρ c (Proc.devRef .tc main_arg12) = m ((c : Thread nD τ).loc main_arg12) :=
  (W4_of_ne m ρ c main_arg12 (by decide)).trans (W3_arg12 m ρ c)
theorem W3_arg13 (c : Dev nD) : W3 m ρ c (Proc.devRef .tc main_arg13) = m ((c : Thread nD τ).loc main_arg13) := by
  refine Eq.trans ?_ (W2_arg13 m ρ c)
  show StableHlo.after hostOps1 (W2 m ρ c) (Proc.devRef .tc main_arg13) = W2 m ρ c (Proc.devRef .tc main_arg13)
  after_results <;> rfl
theorem W4_arg13 (c : Dev nD) : W4 m ρ c (Proc.devRef .tc main_arg13) = m ((c : Thread nD τ).loc main_arg13) :=
  (W4_of_ne m ρ c main_arg13 (by decide)).trans (W3_arg13 m ρ c)
theorem W3_arg14 (c : Dev nD) : W3 m ρ c (Proc.devRef .tc main_arg14) = m ((c : Thread nD τ).loc main_arg14) := by
  refine Eq.trans ?_ (W2_arg14 m ρ c)
  show StableHlo.after hostOps1 (W2 m ρ c) (Proc.devRef .tc main_arg14) = W2 m ρ c (Proc.devRef .tc main_arg14)
  after_results <;> rfl
theorem W4_arg14 (c : Dev nD) : W4 m ρ c (Proc.devRef .tc main_arg14) = m ((c : Thread nD τ).loc main_arg14) :=
  (W4_of_ne m ρ c main_arg14 (by decide)).trans (W3_arg14 m ρ c)
theorem W5_arg13 (c : Dev nD) : W5 m ρ c (Proc.devRef .tc main_arg13) = m ((c : Thread nD τ).loc main_arg13) := by
  refine Eq.trans ?_ (W4_arg13 m ρ c)
  show StableHlo.after hostOps2 (W4 m ρ c) (Proc.devRef .tc main_arg13) = W4 m ρ c (Proc.devRef .tc main_arg13)
  after_results <;> rfl
theorem W6_arg13 (c : Dev nD) : W6 m ρ c (Proc.devRef .tc main_arg13) = m ((c : Thread nD τ).loc main_arg13) :=
  (W6_of_ne m ρ c main_arg13 (by decide)).trans (W5_arg13 m ρ c)
theorem W5_arg14 (c : Dev nD) : W5 m ρ c (Proc.devRef .tc main_arg14) = m ((c : Thread nD τ).loc main_arg14) := by
  refine Eq.trans ?_ (W4_arg14 m ρ c)
  show StableHlo.after hostOps2 (W4 m ρ c) (Proc.devRef .tc main_arg14) = W4 m ρ c (Proc.devRef .tc main_arg14)
  after_results <;> rfl
theorem W6_arg14 (c : Dev nD) : W6 m ρ c (Proc.devRef .tc main_arg14) = m ((c : Thread nD τ).loc main_arg14) :=
  (W6_of_ne m ρ c main_arg14 (by decide)).trans (W5_arg14 m ρ c)

/-! ## The second region -/

set_option maxHeartbeats 4000000 in
theorem entry1_a (c : Dev nD) : V3 m ρ c main_v49 = segMean256 (m ((c : Thread nD τ).loc main_arg0)) (m ((c : Thread nD τ).loc main_arg3)) := by
  have h : V3 m ρ c main_v49 = segMean256 (W2 m ρ c (Proc.devRef .tc main_arg0)) (W2 m ρ c (Proc.devRef .tc main_arg3)) := by
    show StableHlo.after hostOps1 (W2 m ρ c) (Proc.devRef .tc main_v49) = _
    after_results_simp <;> rfl
  rw [h, W2_arg0, W2_arg3]

theorem entry1_b (c : Dev nD) : V3 m ρ c main_arg1 = m ((c : Thread nD τ).loc main_arg1) := by
  refine Eq.trans ?_ (W2_arg1 m ρ c)
  show StableHlo.after hostOps1 (W2 m ρ c) (Proc.devRef .tc main_arg1) = W2 m ρ c (Proc.devRef .tc main_arg1)
  after_results <;> rfl

theorem entry1_wa (c : Dev nD) : V3 m ρ c main_v50 = (transpose S256x512 [1, 0] (m ((c : Thread nD τ).loc main_arg7)) transposes_S512x256_S256x512_1_0) := by
  have h : V3 m ρ c main_v50 = (transpose S256x512 [1, 0] (W2 m ρ c (Proc.devRef .tc main_arg7)) transposes_S512x256_S256x512_1_0) := by
    show StableHlo.after hostOps1 (W2 m ρ c) (Proc.devRef .tc main_v50) = _
    after_results <;> rfl
  rw [h, W2_arg7]

theorem entry1_wb (c : Dev nD) : V3 m ρ c main_v51 = (transpose S256x512 [1, 0] (m ((c : Thread nD τ).loc main_arg9)) transposes_S512x256_S256x512_1_0) := by
  have h : V3 m ρ c main_v51 = (transpose S256x512 [1, 0] (W2 m ρ c (Proc.devRef .tc main_arg9)) transposes_S512x256_S256x512_1_0) := by
    show StableHlo.after hostOps1 (W2 m ρ c) (Proc.devRef .tc main_v51) = _
    after_results <;> rfl
  rw [h, W2_arg9]

theorem entry1_bias (c : Dev nD) : V3 m ρ c main_v52 = (shapeCast S1x512 (m ((c : Thread nD τ).loc main_arg8)) shapeCasts_S512_S1x512) := by
  have h : V3 m ρ c main_v52 = (shapeCast S1x512 (W2 m ρ c (Proc.devRef .tc main_arg8)) shapeCasts_S512_S1x512) := by
    show StableHlo.after hostOps1 (W2 m ρ c) (Proc.devRef .tc main_v52) = _
    after_results <;> rfl
  rw [h, W2_arg8]

/-- The second region leaves the second convolution in its result array. -/
theorem out1 (c : Dev nD) : W4 m ρ c (Proc.devRef .tc main_v53) = conv256 (m ((c : Thread nD τ).loc main_arg0)) (m ((c : Thread nD τ).loc main_arg1)) (m ((c : Thread nD τ).loc main_arg3)) (m ((c : Thread nD τ).loc main_arg7)) (m ((c : Thread nD τ).loc main_arg9)) (m ((c : Thread nD τ).loc main_arg8)) :=
  (W4_arr m ρ c 5).trans ((Cert.KernelIdeal.Layer1.final (V3 m ρ) c).trans (by
    unfold Cert.KernelIdeal.Layer1.G
    rw [entry1_a, entry1_b, entry1_wa, entry1_wb, entry1_bias]
    rfl))

/-- The first region's result is still in its array when the third region's host operations start. -/
theorem W4_v26 (c : Dev nD) : W4 m ρ c (Proc.devRef .tc main_v26) = conv256 (m ((c : Thread nD τ).loc main_arg0)) (m ((c : Thread nD τ).loc main_arg0)) (m ((c : Thread nD τ).loc main_arg2)) (m ((c : Thread nD τ).loc main_arg4)) (m ((c : Thread nD τ).loc main_arg6)) (m ((c : Thread nD τ).loc main_arg5)) := by
  refine (W4_of_ne m ρ c main_v26 (by decide)).trans (Eq.trans ?_ (out0 m ρ c))
  show StableHlo.after hostOps1 (W2 m ρ c) (Proc.devRef .tc main_v26) = W2 m ρ c (Proc.devRef .tc main_v26)
  after_results <;> rfl

/-! ## The third region -/

set_option maxHeartbeats 4000000 in
theorem entry2_a (c : Dev nD) : V5 m ρ c main_v76
    = segMean512 (conv256 (m ((c : Thread nD τ).loc main_arg0)) (m ((c : Thread nD τ).loc main_arg0)) (m ((c : Thread nD τ).loc main_arg2)) (m ((c : Thread nD τ).loc main_arg4)) (m ((c : Thread nD τ).loc main_arg6)) (m ((c : Thread nD τ).loc main_arg5))) (m ((c : Thread nD τ).loc main_arg3)) := by
  have h : V5 m ρ c main_v76 = segMean512 (W4 m ρ c (Proc.devRef .tc main_v26)) (W4 m ρ c (Proc.devRef .tc main_arg3)) := by
    show StableHlo.after hostOps2 (W4 m ρ c) (Proc.devRef .tc main_v76) = _
    after_results_simp <;> rfl
  rw [h, W4_v26, W4_arg3]

theorem entry2_b (c : Dev nD) : V5 m ρ c main_v53 = conv256 (m ((c : Thread nD τ).loc main_arg0)) (m ((c : Thread nD τ).loc main_arg1)) (m ((c : Thread nD τ).loc main_arg3)) (m ((c : Thread nD τ).loc main_arg7)) (m ((c : Thread nD τ).loc main_arg9)) (m ((c : Thread nD τ).loc main_arg8)) := by
  refine Eq.trans ?_ (out1 m ρ c)
  show StableHlo.after hostOps2 (W4 m ρ c) (Proc.devRef .tc main_v53) = W4 m ρ c (Proc.devRef .tc main_v53)
  after_results <;> rfl

theorem entry2_wa (c : Dev nD) : V5 m ρ c main_v77 = (transpose S512x512 [1, 0] (m ((c : Thread nD τ).loc main_arg10)) transposes_S512x512_S512x512_1_0) := by
  have h : V5 m ρ c main_v77 = (transpose S512x512 [1, 0] (W4 m ρ c (Proc.devRef .tc main_arg10)) transposes_S512x512_S512x512_1_0) := by
    show StableHlo.after hostOps2 (W4 m ρ c) (Proc.devRef .tc main_v77) = _
    after_results <;> rfl
  rw [h, W4_arg10]

theorem entry2_wb (c : Dev nD) : V5 m ρ c main_v78 = (transpose S512x512 [1, 0] (m ((c : Thread nD τ).loc main_arg12)) transposes_S512x512_S512x512_1_0) := by
  have h : V5 m ρ c main_v78 = (transpose S512x512 [1, 0] (W4 m ρ c (Proc.devRef .tc main_arg12)) transposes_S512x512_S512x512_1_0) := by
    show StableHlo.after hostOps2 (W4 m ρ c) (Proc.devRef .tc main_v78) = _
    after_results <;> rfl
  rw [h, W4_arg12]

theorem entry2_bias (c : Dev nD) : V5 m ρ c main_v79 = (shapeCast S1x512 (m ((c : Thread nD τ).loc main_arg11)) shapeCasts_S512_S1x512) := by
  have h : V5 m ρ c main_v79 = (shapeCast S1x512 (W4 m ρ c (Proc.devRef .tc main_arg11)) shapeCasts_S512_S1x512) := by
    show StableHlo.after hostOps2 (W4 m ρ c) (Proc.devRef .tc main_v79) = _
    after_results <;> rfl
  rw [h, W4_arg11]

/-- The third region leaves the third convolution in its result array. -/
theorem out2 (c : Dev nD) : W6 m ρ c (Proc.devRef .tc main_v80)
    = conv512 (conv256 (m ((c : Thread nD τ).loc main_arg0)) (m ((c : Thread nD τ).loc main_arg0)) (m ((c : Thread nD τ).loc main_arg2)) (m ((c : Thread nD τ).loc main_arg4)) (m ((c : Thread nD τ).loc main_arg6)) (m ((c : Thread nD τ).loc main_arg5))) (conv256 (m ((c : Thread nD τ).loc main_arg0)) (m ((c : Thread nD τ).loc main_arg1)) (m ((c : Thread nD τ).loc main_arg3)) (m ((c : Thread nD τ).loc main_arg7)) (m ((c : Thread nD τ).loc main_arg9)) (m ((c : Thread nD τ).loc main_arg8)))
        (m ((c : Thread nD τ).loc main_arg3)) (m ((c : Thread nD τ).loc main_arg10)) (m ((c : Thread nD τ).loc main_arg12)) (m ((c : Thread nD τ).loc main_arg11)) :=
  (W6_arr m ρ c 5).trans ((Cert.KernelIdeal.Layer2.final (V5 m ρ) c).trans (by
    unfold Cert.KernelIdeal.Layer2.G
    rw [entry2_a, entry2_b, entry2_wa, entry2_wb, entry2_bias]
    rfl))

/-! ## The fourth region and the result -/

theorem entry3_a (c : Dev nD) : V7 m ρ c main_v80
    = conv512 (conv256 (m ((c : Thread nD τ).loc main_arg0)) (m ((c : Thread nD τ).loc main_arg0)) (m ((c : Thread nD τ).loc main_arg2)) (m ((c : Thread nD τ).loc main_arg4)) (m ((c : Thread nD τ).loc main_arg6)) (m ((c : Thread nD τ).loc main_arg5))) (conv256 (m ((c : Thread nD τ).loc main_arg0)) (m ((c : Thread nD τ).loc main_arg1)) (m ((c : Thread nD τ).loc main_arg3)) (m ((c : Thread nD τ).loc main_arg7)) (m ((c : Thread nD τ).loc main_arg9)) (m ((c : Thread nD τ).loc main_arg8)))
        (m ((c : Thread nD τ).loc main_arg3)) (m ((c : Thread nD τ).loc main_arg10)) (m ((c : Thread nD τ).loc main_arg12)) (m ((c : Thread nD τ).loc main_arg11)) := by
  refine Eq.trans ?_ (out2 m ρ c)
  show StableHlo.after hostOps3 (W6 m ρ c) (Proc.devRef .tc main_v80) = W6 m ρ c (Proc.devRef .tc main_v80)
  after_results <;> rfl

theorem entry3_w (c : Dev nD) : V7 m ρ c main_v81 = (transpose S512x256 [1, 0] (m ((c : Thread nD τ).loc main_arg13)) transposes_S256x512_S512x256_1_0) := by
  have h : V7 m ρ c main_v81 = (transpose S512x256 [1, 0] (W6 m ρ c (Proc.devRef .tc main_arg13)) transposes_S256x512_S512x256_1_0) := by
    show StableHlo.after hostOps3 (W6 m ρ c) (Proc.devRef .tc main_v81) = _
    after_results <;> rfl
  rw [h, W6_arg13]

theorem entry3_bias (c : Dev nD) : V7 m ρ c main_v82 = (shapeCast S1x256 (m ((c : Thread nD τ).loc main_arg14)) shapeCasts_S256_S1x256) := by
  have h : V7 m ρ c main_v82 = (shapeCast S1x256 (W6 m ρ c (Proc.devRef .tc main_arg14)) shapeCasts_S256_S1x256) := by
    show StableHlo.after hostOps3 (W6 m ρ c) (Proc.devRef .tc main_v82) = _
    after_results <;> rfl
  rw [h, W6_arg14]

/-- The kernel's result buffer ends holding the network of the fifteen launch arguments. -/
theorem result (c : Dev nD) : W8 m ρ c (Proc.devRef .tc main_v83)
    = spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (W8_arr m ρ c 3).trans ((Cert.KernelIdeal.Layer3.final (V7 m ρ) c).trans (by
    unfold Cert.KernelIdeal.Layer3.G
    rw [entry3_a, entry3_w, entry3_bias]
    rfl))

end Cert.KernelIdeal.Glue

end
-- ==== Proof.RefSide.lean ====
/-
  The reference program's result is the network of its fifteen argument arrays.

  The reference spells each convolution as a contraction, the bias vector placed as a row, spread over the rows and added,
  the second contraction added, and the maximum against a spread zero; the kernel's regions add the bias after both
  products.  Addition of extended reals is commutative and associative, so the two orders give the same matrix, at the
  infinities too.  The mean over edges and the transposes are the same host operations in both programs.
-/
import proofs.«101142_j61718680044159_1_alg».proof.Proof.Gen.ReferenceIdeal.Run
import proofs.«101142_j61718680044159_1_alg».proof.Proof.Spec

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem
open Cert.LibRowStages Cert.LibDualLayer

set_option maxHeartbeats 4000000 in
/-- The reference's result term is the network of the argument arrays. -/
theorem result (m : (ℓ : Loc nD τ sig) → Buf (Elt Ideal) ℓ) (c : Dev nD) :
    res_main_v100 (F := Ideal) m c
      = Cert.KernelIdeal.Spec.spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold res_main_v100
  rw [host_lin dot_S20000x512_S512x256_S20000x256_1_0_0_1_n_n rfl rfl rfl rfl rfl rfl
      bcast_S256_S1x256_1 bcast_S1x256_S20000x256_0_1 Cert.KernelIdeal.Facts₀.shapeCasts_S256_S1x256]
  rw [host_dual dot_S20000x512_S512x512_S20000x512_1_0_0_1_n_n dot_S20000x512_S512x512_S20000x512_1_0_0_1_n_n rfl rfl rfl rfl rfl rfl rfl rfl rfl rfl rfl rfl
      bcast_S512_S1x512_1 bcast_S1x512_S20000x512_0_1 bcast_S_S20000x512 Cert.KernelIdeal.Facts₀.shapeCasts_S512_S1x512]
  rw [host_dual dot_S20000x256_S256x512_S20000x512_1_0_0_1_n_n dot_S20000x256_S256x512_S20000x512_1_0_0_1_n_n rfl rfl rfl rfl rfl rfl rfl rfl rfl rfl rfl rfl
      bcast_S512_S1x512_1 bcast_S1x512_S20000x512_0_1 bcast_S_S20000x512 Cert.KernelIdeal.Facts₀.shapeCasts_S512_S1x512]
  rw [host_dual dot_S20000x256_S256x512_S20000x512_1_0_0_1_n_n dot_S20000x256_S256x512_S20000x512_1_0_0_1_n_n rfl rfl rfl rfl rfl rfl rfl rfl rfl rfl rfl rfl
      bcast_S512_S1x512_1 bcast_S1x512_S20000x512_0_1 bcast_S_S20000x512 Cert.KernelIdeal.Facts₀.shapeCasts_S512_S1x512]
  rfl

end Cert.ReferenceIdeal.RefValue

end
-- ==== Proof.lean ====
/-
  The kernel and its reference compute one function of their fifteen arguments on the extended reals.

  The program is three graph convolutions and a linear head.  Each convolution takes the mean over incoming edges of a source
  matrix's rows, multiplies it by transposed left weights, adds the destination rows times transposed right weights and a
  bias row, and floors at zero.  The kernel computes the dense part of each convolution in a grid region, twenty blocks of
  1000 rows, adding the bias after both products; the reference adds the bias between the two products.  The stage works
  one row at a time, so the blocks written are the rows of the stage of the whole matrices and tile the result; and
  (p + b) + q = (p + q) + b on the extended reals, infinities included, so the two orders agree.  Changes of float format
  are the identity on the extended reals, a matrix unit's product into a zero accumulator and the host's contraction are
  the same sum, and the mean over edges and the transposes are the same host operations in both programs, kept closed.
  No input needs to be finite for any of this, so the precondition is not used.

  The kernel's run is read through the fold of its eight segments (four stretches of host operations, four regions); the
  reference's run is its generated one.  The idealization rewrote nothing, so the kernel's idealization is its own text.
-/
import proofs.«101142_j61718680044159_1_alg».proof.Defs
import proofs.«101142_j61718680044159_1_alg».proof.Proof.Gen.Kernel
import proofs.«101142_j61718680044159_1_alg».proof.Proof.Gen.Kernel.Skeleton
import proofs.«101142_j61718680044159_1_alg».proof.Proof.Gen.Kernel.Launch
import proofs.«101142_j61718680044159_1_alg».proof.Proof.Gen.Kernel.Points
import proofs.«101142_j61718680044159_1_alg».proof.Proof.Gen.Kernel.Frame
import proofs.«101142_j61718680044159_1_alg».proof.Proof.Gen.KernelIdeal
import proofs.«101142_j61718680044159_1_alg».proof.Proof.Gen.KernelIdeal.Skeleton
import proofs.«101142_j61718680044159_1_alg».proof.Proof.Gen.KernelIdeal.Launch
import proofs.«101142_j61718680044159_1_alg».proof.Proof.Gen.KernelIdeal.Points
import proofs.«101142_j61718680044159_1_alg».proof.Proof.Gen.KernelIdeal.Frame
import proofs.«101142_j61718680044159_1_alg».proof.Proof.Gen.ReferenceIdeal
import proofs.«101142_j61718680044159_1_alg».proof.Proof.Gen.ReferenceIdeal.Run
import proofs.«101142_j61718680044159_1_alg».proof.Proof.Gen.Pre_finite_inputs
import proofs.«101142_j61718680044159_1_alg».proof.Proof.ResultRun
import proofs.«101142_j61718680044159_1_alg».proof.Proof.Glue
import proofs.«101142_j61718680044159_1_alg».proof.Proof.RefSide
import Idealize.ShloMosaic.Adequacy
import Idealize.ShloMosaic.Init

noncomputable section

namespace Cert.Proof

open Idealize.ShloMosaic Idealize.SL.Sem

/-- Run from memories that agree on the arguments, both idealized programs end with the network of those arguments in
    their result buffers. -/
theorem algebraic : Cert.algebraic_KernelIdeal_ReferenceIdeal := by
  intro m ρ m' ρ' _ hagree
  refine ⟨fun c => Cert.KernelIdeal.Spec.spec (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun _ h c => ⟨(h c).1.trans (Cert.KernelIdeal.Glue.result m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14⟩ := hagree c
    rw [Cert.ReferenceIdeal.RefValue.result m' c, h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
